-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S900000x128 : Shape := ⟨2, ![900000, 128]⟩
abbrev S1x128 : Shape := ⟨2, ![1, 128]⟩
abbrev S100000x64 : Shape := ⟨2, ![100000, 64]⟩
abbrev S4000x64 : Shape := ⟨2, ![4000, 64]⟩
abbrev S900000x64 : Shape := ⟨2, ![900000, 64]⟩
abbrev S1x64 : Shape := ⟨2, ![1, 64]⟩

abbrev nBuf : Space → Nat
  | .hbm => 54
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .bf16⟩
  | .hbm, ⟨22, _⟩ => ⟨S_, .i32⟩
  | .hbm, ⟨23, _⟩ => ⟨S900000, .i32⟩
  | .hbm, ⟨24, _⟩ => ⟨S900000, .i1⟩
  | .hbm, ⟨25, _⟩ => ⟨S_, .i32⟩
  | .hbm, ⟨26, _⟩ => ⟨S900000, .i32⟩
  | .hbm, ⟨27, _⟩ => ⟨S900000, .i32⟩
  | .hbm, ⟨28, _⟩ => ⟨S900000, .i32⟩
  | .hbm, ⟨29, _⟩ => ⟨S900000x1, .i32⟩
  | .hbm, ⟨30, _⟩ => ⟨S900000x128, .bf16⟩
  | .hbm, ⟨31, _⟩ => ⟨S900000x128, .f32⟩
  | .hbm, ⟨32, _⟩ => ⟨S_, .f32⟩
  | .hbm, ⟨33, _⟩ => ⟨S100000x128, .f32⟩
  | .hbm, ⟨34, _⟩ => ⟨S900000x1, .i32⟩
  | .hbm, ⟨35, _⟩ => ⟨S100000x128, .f32⟩
  | .hbm, ⟨36, _⟩ => ⟨S1x128, .f32⟩
  | .hbm, ⟨37, _⟩ => ⟨S100000x64, .bf16⟩
  | .hbm, ⟨38, _⟩ => ⟨S_, .i32⟩
  | .hbm, ⟨39, _⟩ => ⟨S900000, .i32⟩
  | .hbm, ⟨40, _⟩ => ⟨S900000, .i1⟩
  | .hbm, ⟨41, _⟩ => ⟨S_, .i32⟩
  | .hbm, ⟨42, _⟩ => ⟨S900000, .i32⟩
  | .hbm, ⟨43, _⟩ => ⟨S900000, .i32⟩
  | .hbm, ⟨44, _⟩ => ⟨S900000, .i32⟩
  | .hbm, ⟨45, _⟩ => ⟨S900000x1, .i32⟩
  | .hbm, ⟨46, _⟩ => ⟨S900000x64, .bf16⟩
  | .hbm, ⟨47, _⟩ => ⟨S900000x64, .f32⟩
  | .hbm, ⟨48, _⟩ => ⟨S_, .f32⟩
  | .hbm, ⟨49, _⟩ => ⟨S100000x64, .f32⟩
  | .hbm, ⟨50, _⟩ => ⟨S900000x1, .i32⟩
  | .hbm, ⟨51, _⟩ => ⟨S100000x64, .f32⟩
  | .hbm, ⟨52, _⟩ => ⟨S1x64, .f32⟩
  | .hbm, ⟨53, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S900000x1_S900000_n_0_0_1_wf : ScatterDims.WF S100000 S900000x1 S900000 [] [0] [0] 1
  dot_S4000x256_S256x128_S4000x128_1_0_0_1_n_n_wf : DotDims.WF S4000x256 S256x128 S4000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S4000x128_S128x64_S4000x64_1_0_0_1_n_n_wf : DotDims.WF S4000x128 S128x64 S4000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S900000x128 : Shape := ⟨2, ![900000, 128]⟩
abbrev S1x128 : Shape := ⟨2, ![1, 128]⟩
abbrev S100000x64 : Shape := ⟨2, ![100000, 64]⟩
abbrev S900000x64 : Shape := ⟨2, ![900000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S900000, .i32⟩
  | .hbm, ⟨22, _⟩ => ⟨S900000, .i1⟩
  | .hbm, ⟨23, _⟩ => ⟨S_, .i32⟩
  | .hbm, ⟨24, _⟩ => ⟨S900000, .i32⟩
  | .hbm, ⟨25, _⟩ => ⟨S900000, .i32⟩
  | .hbm, ⟨26, _⟩ => ⟨S900000, .i32⟩
  | .hbm, ⟨27, _⟩ => ⟨S900000x1, .i32⟩
  | .hbm, ⟨28, _⟩ => ⟨S900000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S900000, .f32⟩
  | .hbm, ⟨39, _⟩ => ⟨S100000x128, .f32⟩
  | .hbm, ⟨40, _⟩ => ⟨S_, .i32⟩
  | .hbm, ⟨41, _⟩ => ⟨S900000, .i32⟩
  | .hbm, ⟨42, _⟩ => ⟨S900000, .i1⟩
  | .hbm, ⟨43, _⟩ => ⟨S_, .i32⟩
  | .hbm, ⟨44, _⟩ => ⟨S900000, .i32⟩
  | .hbm, ⟨45, _⟩ => ⟨S900000, .i32⟩
  | .hbm, ⟨46, _⟩ => ⟨S900000, .i32⟩
  | .hbm, ⟨47, _⟩ => ⟨S900000x1, .i32⟩
  | .hbm, ⟨48, _⟩ => ⟨S900000x128, .f32⟩
  | .hbm, ⟨49, _⟩ => ⟨S900000x1, .f32⟩
  | .hbm, ⟨50, _⟩ => ⟨S900000x128, .f32⟩
  | .hbm, ⟨51, _⟩ => ⟨S900000x128, .f32⟩
  | .hbm, ⟨52, _⟩ => ⟨S_, .f32⟩
  | .hbm, ⟨53, _⟩ => ⟨S100000x128, .f32⟩
  | .hbm, ⟨54, _⟩ => ⟨S900000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S900000, .i32⟩
  | .hbm, ⟨65, _⟩ => ⟨S900000, .i1⟩
  | .hbm, ⟨66, _⟩ => ⟨S_, .i32⟩
  | .hbm, ⟨67, _⟩ => ⟨S900000, .i32⟩
  | .hbm, ⟨68, _⟩ => ⟨S900000, .i32⟩
  | .hbm, ⟨69, _⟩ => ⟨S900000, .i32⟩
  | .hbm, ⟨70, _⟩ => ⟨S900000x1, .i32⟩
  | .hbm, ⟨71, _⟩ => ⟨S900000x64, .f32⟩
  | .hbm, ⟨72, _⟩ => ⟨S900000x1, .f32⟩
  | .hbm, ⟨73, _⟩ => ⟨S900000x64, .f32⟩
  | .hbm, ⟨74, _⟩ => ⟨S900000x64, .f32⟩
  | .hbm, ⟨75, _⟩ => ⟨S_, .f32⟩
  | .hbm, ⟨76, _⟩ => ⟨S100000x64, .f32⟩
  | .hbm, ⟨77, _⟩ => ⟨S900000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x256_S256x128_S100000x128_1_0_0_1_n_n_wf : DotDims.WF S100000x256 S256x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.KernelRun.lean ====
/-
  The idealized kernel program's run, with the result array named.

  The program is three kernel regions among stretches of host operations. Its run passes through seven boundaries;
  at the last one every unscoped buffer of the TensorCore holds the contents the fold over the segments gives it.
  Here that run is stated with the result array read at that last boundary, beside the six argument arrays, which end
  as launched.
-/
import proofs.«148335_j27685359190830_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents of
    the last boundary, and each argument array as launched. -/
theorem run_result : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Val

end
-- ==== Proof.KernelPay.lean ====
/-
  What each kernel body stores, read at an index, on the extended reals.

  Region 0 stores, at row p and column j of its block, the product of row p of the x block with column j of W1, scaled
  by entry p of the degree column. Region 1 stores the product of row p of max(agg * d + b1, 0) with column j of W2,
  scaled by entry p of the degree column. Region 2 stores agg * d + b2. A change of float format is the identity here.
-/
import proofs.«148335_j27685359190830_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products: entry (p, j) is the sum over k of left (p, k) times right (k, j) -/

abbrev dotA := dot_S4000x256_S256x128_S4000x128_1_0_0_1_n_n
abbrev dotB := dot_S4000x128_S128x64_S4000x64_1_0_0_1_n_n

theorem lhsA_0 (i : S4000x128.Idx) (q : dotA.contr.Idx) : (dotA.lhsIdx i q 0).val = (i 0).val := by
  unfold DotDims.lhsIdx
  rw [dif_neg (show ¬(0 : Fin S4000x256.rank) ∈ dotA.lhsBatch by decide), dif_pos (show (0 : Fin S4000x256.rank) ∈ dotA.lhsNonContracting by decide)]
  rfl
theorem lhsA_1 (i : S4000x128.Idx) (q : dotA.contr.Idx) : (dotA.lhsIdx i q 1).val = (q ⟨0, by decide⟩).val :=
  dotA.lhsIdx_val_of_single rfl i q
theorem rhsA_0 (i : S4000x128.Idx) (q : dotA.contr.Idx) : (dotA.rhsIdx i q 0).val = (q ⟨0, by decide⟩).val :=
  dotA.rhsIdx_val_of_single rfl i q
theorem rhsA_1 (i : S4000x128.Idx) (q : dotA.contr.Idx) : (dotA.rhsIdx i q 1).val = (i 1).val := by
  unfold DotDims.rhsIdx
  rw [dif_neg (show ¬(1 : Fin S256x128.rank) ∈ dotA.rhsBatch by decide), dif_pos (show (1 : Fin S256x128.rank) ∈ dotA.rhsNonContracting by decide)]
  rfl

theorem dotA_apply {φ₁ φ₂ : FTy} (l : FVec Ideal S4000x256 φ₁) (r : FVec Ideal S256x128 φ₂) (p : Fin 4000) (j : Fin 128) :
    matmul dotA none l r (constant (F := Ideal) S4000x128 .f32 0x00000000#32) (ix2 p j)
      = ∑ k : Fin 256, l (ix2 p k) * r (ix2 k j) := by
  show FloatOps.matmul dotA none l r (constant (F := Ideal) S4000x128 .f32 0x00000000#32) (ix2 p j) = _
  rw [Ideal.matmul_constant_zero_apply, ← Equiv.sum_comp (contrEquiv1 dotA 256 rfl rfl).symm]
  refine Finset.sum_congr rfl fun k _ => ?_
  have hk := contrEquiv1_symm_val dotA 256 rfl rfl k
  have el : dotA.lhsIdx (ix2 p j) ((contrEquiv1 dotA 256 rfl rfl).symm k) = ix2 p k := funext fun a => Fin.ext (by
    match a with
    | ⟨0, _⟩ => exact lhsA_0 _ _
    | ⟨1, _⟩ => exact (lhsA_1 _ _).trans hk)
  have er : dotA.rhsIdx (ix2 p j) ((contrEquiv1 dotA 256 rfl rfl).symm k) = ix2 k j := funext fun a => Fin.ext (by
    match a with
    | ⟨0, _⟩ => exact (rhsA_0 _ _).trans hk
    | ⟨1, _⟩ => exact rhsA_1 _ _)
  rw [el, er]

theorem lhsB_0 (i : S4000x64.Idx) (q : dotB.contr.Idx) : (dotB.lhsIdx i q 0).val = (i 0).val := by
  unfold DotDims.lhsIdx
  rw [dif_neg (show ¬(0 : Fin S4000x128.rank) ∈ dotB.lhsBatch by decide), dif_pos (show (0 : Fin S4000x128.rank) ∈ dotB.lhsNonContracting by decide)]
  rfl
theorem lhsB_1 (i : S4000x64.Idx) (q : dotB.contr.Idx) : (dotB.lhsIdx i q 1).val = (q ⟨0, by decide⟩).val :=
  dotB.lhsIdx_val_of_single rfl i q
theorem rhsB_0 (i : S4000x64.Idx) (q : dotB.contr.Idx) : (dotB.rhsIdx i q 0).val = (q ⟨0, by decide⟩).val :=
  dotB.rhsIdx_val_of_single rfl i q
theorem rhsB_1 (i : S4000x64.Idx) (q : dotB.contr.Idx) : (dotB.rhsIdx i q 1).val = (i 1).val := by
  unfold DotDims.rhsIdx
  rw [dif_neg (show ¬(1 : Fin S128x64.rank) ∈ dotB.rhsBatch by decide), dif_pos (show (1 : Fin S128x64.rank) ∈ dotB.rhsNonContracting by decide)]
  rfl

theorem dotB_apply {φ₁ φ₂ : FTy} (l : FVec Ideal S4000x128 φ₁) (r : FVec Ideal S128x64 φ₂) (p : Fin 4000) (j : Fin 64) :
    matmul dotB none l r (constant (F := Ideal) S4000x64 .f32 0x00000000#32) (ix2 p j)
      = ∑ k : Fin 128, l (ix2 p k) * r (ix2 k j) := by
  show FloatOps.matmul dotB none l r (constant (F := Ideal) S4000x64 .f32 0x00000000#32) (ix2 p j) = _
  rw [Ideal.matmul_constant_zero_apply, ← Equiv.sum_comp (contrEquiv1 dotB 128 rfl rfl).symm]
  refine Finset.sum_congr rfl fun k _ => ?_
  have hk := contrEquiv1_symm_val dotB 128 rfl rfl k
  have el : dotB.lhsIdx (ix2 p j) ((contrEquiv1 dotB 128 rfl rfl).symm k) = ix2 p k := funext fun a => Fin.ext (by
    match a with
    | ⟨0, _⟩ => exact lhsB_0 _ _
    | ⟨1, _⟩ => exact (lhsB_1 _ _).trans hk)
  have er : dotB.rhsIdx (ix2 p j) ((contrEquiv1 dotB 128 rfl rfl).symm k) = ix2 k j := funext fun a => Fin.ext (by
    match a with
    | ⟨0, _⟩ => exact (rhsB_0 _ _).trans hk
    | ⟨1, _⟩ => exact rhsB_1 _ _)
  rw [el, er]

/-! ## The three stored values -/

/-- Region 0: (x W1)(p, j) scaled by d(p). -/
theorem pay0_apply (x : Vec Ideal S4000x256 .f32) (w : Vec Ideal S256x128 .f32) (d : Vec Ideal S4000x1 .f32)
    (p : Fin 4000) (j : Fin 128) :
    k0_pay1 (F := Ideal) x w d (ix2 p j) = (∑ k : Fin 256, x (ix2 p k) * w (ix2 k j)) * d (ix2 p (0 : Fin 1)) := by
  unfold k0_pay1
  simp only [truncf_apply, mulf_apply]
  rw [dotA_apply, broadcastTo_a1_ab_apply, shapeCast_self]
  simp only [truncf_apply]

/-- Entry (r, j) of the second scaled product, over a table of R rows: the hidden entry (r, k) is the aggregate scaled
    by d(r), plus the bias, clipped below at zero; the row of hidden entries times column j of the weights, scaled by
    d(r). -/
def g1 {R : Nat} (a : (⟨2, ![R, 128]⟩ : Shape).Idx → EReal) (d : (⟨2, ![R, 1]⟩ : Shape).Idx → EReal)
    (b : (⟨2, ![1, 128]⟩ : Shape).Idx → EReal) (w : (⟨2, ![128, 64]⟩ : Shape).Idx → EReal) (r : Fin R) (j : Fin 64) : EReal :=
  (∑ k : Fin 128, max (a (ix2 r k) * d (ix2 r (0 : Fin 1)) + b (ix2 (0 : Fin 1) k)) 0 * w (ix2 k j)) * d (ix2 r (0 : Fin 1))

/-- That entry depends only on row r of the aggregate, entry r of the degree column, the bias and column j of the
    weights. -/
theorem g1_congr {R R' : Nat} {a : (⟨2, ![R, 128]⟩ : Shape).Idx → EReal} {a' : (⟨2, ![R', 128]⟩ : Shape).Idx → EReal}
    {d : (⟨2, ![R, 1]⟩ : Shape).Idx → EReal} {d' : (⟨2, ![R', 1]⟩ : Shape).Idx → EReal}
    {b b' : (⟨2, ![1, 128]⟩ : Shape).Idx → EReal} {w w' : (⟨2, ![128, 64]⟩ : Shape).Idx → EReal}
    {r : Fin R} {r' : Fin R'} {j : Fin 64}
    (ha : ∀ k, a (ix2 r k) = a' (ix2 r' k)) (hd : d (ix2 r (0 : Fin 1)) = d' (ix2 r' (0 : Fin 1)))
    (hb : ∀ k, b (ix2 (0 : Fin 1) k) = b' (ix2 (0 : Fin 1) k)) (hw : ∀ k, w (ix2 k j) = w' (ix2 k j)) :
    g1 a d b w r j = g1 a' d' b' w' r' j := by
  unfold g1
  simp only [ha, hd, hb, hw]

/-- Region 1: (h W2)(p, j) scaled by d(p), h the hidden layer. -/
theorem pay1_apply (d : Vec Ideal S4000x1 .f32) (a : Vec Ideal S4000x128 .f32) (b : Vec Ideal S1x128 .f32) (w : Vec Ideal S128x64 .f32)
    (p : Fin 4000) (j : Fin 64) :
    k1_pay1 (F := Ideal) d a b w (ix2 p j) = g1 (R := 4000) a d b w p j := by
  unfold k1_pay1 g1
  simp only [truncf_apply, mulf_apply, shapeCast_self]
  rw [dotB_apply, broadcastTo_a1_ab_apply]
  refine congrArg (· * d (ix2 p (0 : Fin 1))) (Finset.sum_congr rfl fun k _ => ?_)
  simp only [truncf_apply, maximumf_apply, addf_apply, mulf_apply, broadcast_apply]
  rw [broadcastTo_a1_ab_apply, broadcastTo_1b_ab_apply]
  show max _ (Ideal.ofBits .f32 0x00000000#32) * _ = _
  rw [Ideal.ofBits_zero_f32]

/-- Region 2: agg(p, j) scaled by d(p), plus the bias. -/
theorem pay2_apply (a : Vec Ideal S4000x64 .f32) (d : Vec Ideal S4000x1 .f32) (b : Vec Ideal S1x64 .f32)
    (p : Fin 4000) (j : Fin 64) :
    k2_pay1 (F := Ideal) a d b (ix2 p j) = a (ix2 p j) * d (ix2 p (0 : Fin 1)) + b (ix2 (0 : Fin 1) j) := by
  unfold k2_pay1
  simp only [addf_apply, mulf_apply]
  rw [broadcastTo_a1_ab_apply, broadcastTo_1b_ab_apply, shapeCast_self, shapeCast_self, shapeCast_self]

end Cert.KernelIdeal.Pay

end
-- ==== Proof.KernelReg0.lean ====
/-
  Region 0 as one function of the arrays it finds: the scaled product.

  The grid has 25 points; point t works on rows 4000 t … 4000 t + 3999. It reads those rows of x and of the degree
  column, and all of W1, and writes those rows of the result: entry (r, j) is the product of row r of x with
  column j of W1, scaled by entry r of the degree column. The 25 row blocks tile the result, so after the region the
  whole result array is that function of the three input arrays.
-/
import proofs.«148335_j27685359190830_2_alg».proof.Proof.Gen.KernelIdeal.Frame
import proofs.«148335_j27685359190830_2_alg».proof.Proof.KernelPay

set_option maxRecDepth 16384

noncomputable section

namespace Cert.KernelIdeal.Reg

open Cert.KernelIdeal Cert.KernelIdeal.Gen Cert.KernelIdeal.Pay
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (r, j) of the scaled product. -/
def g0 (x : S100000x256.Idx → EReal) (w : S256x128.Idx → EReal) (d : S100000x1.Idx → EReal) (r : Fin 100000) (j : Fin 128) : EReal :=
  (∑ k : Fin 256, x (ix2 r k) * w (ix2 k j)) * d (ix2 r (0 : Fin 1))

/-- The scaled product as an array. -/
def G0 (x : S100000x256.Idx → EReal) (w : S256x128.Idx → EReal) (d : S100000x1.Idx → EReal) : S100000x128.Idx → EReal :=
  fun i => g0 x w d ⟨(i 0).val, idx2_lt0 i⟩ ⟨(i 1).val, idx2_lt1 i⟩

theorem G0_apply (x : S100000x256.Idx → EReal) (w : S256x128.Idx → EReal) (d : S100000x1.Idx → EReal) (r : Fin 100000) (j : Fin 128) :
    G0 x w d (ix2 r j) = g0 x w d r j := rfl

/-- The block index maps over the grid: the row-blocked windows sit at block row t, the whole-array window at 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The x block at point t holds rows 4000 t … of x. -/
theorem rd0_0 (c : Dev nD) (t : Fin cfg0.N) (z : S4000x256.Idx) (i : S100000x256.Idx)
    (h0 : (i 0).val = t.val * 4000 + (z 0).val) (h1 : (i 1).val = (z 1).val) :
    iblk0 V c 0 t z = V c main_arg0 i := by
  obtain ⟨e0, e1, -⟩ := idx0 t
  show V c main_arg0 (((cfg0.win 0).blk t).view.emb z) = V c main_arg0 i
  refine congrArg (V c main_arg0) (funext fun a => Fin.ext ?_)
  match a with
  | ⟨0, _⟩ => show win0_0.index t (0 : Fin 2) * 4000 + 1 * (z 0).val = (i 0).val; omega
  | ⟨1, _⟩ => show win0_0.index t (1 : Fin 2) * 256 + 1 * (z 1).val = (i 1).val; omega

/-- The W1 block at every point is all of W1. -/
theorem rd0_1 (c : Dev nD) (t : Fin cfg0.N) (z : S256x128.Idx) (i : S256x128.Idx)
    (h0 : (i 0).val = (z 0).val) (h1 : (i 1).val = (z 1).val) :
    iblk0 V c 1 t z = V c main_arg2 i := by
  obtain ⟨-, -, e2, e3, -⟩ := idx0 t
  show V c main_arg2 (((cfg0.win 1).blk t).view.emb z) = V c main_arg2 i
  refine congrArg (V c main_arg2) (funext fun a => Fin.ext ?_)
  match a with
  | ⟨0, _⟩ => show win0_1.index t (0 : Fin 2) * 256 + 1 * (z 0).val = (i 0).val; omega
  | ⟨1, _⟩ => show win0_1.index t (1 : Fin 2) * 128 + 1 * (z 1).val = (i 1).val; omega

/-- The degree-column block at point t holds rows 4000 t … of the column. -/
theorem rd0_2 (c : Dev nD) (t : Fin cfg0.N) (z : S4000x1.Idx) (i : S100000x1.Idx)
    (h0 : (i 0).val = t.val * 4000 + (z 0).val) (h1 : (i 1).val = (z 1).val) :
    iblk0 V c 2 t z = V c main_v12 i := by
  obtain ⟨-, -, -, -, e4, e5, -⟩ := idx0 t
  show V c main_v12 (((cfg0.win 2).blk t).view.emb z) = V c main_v12 i
  refine congrArg (V c main_v12) (funext fun a => Fin.ext ?_)
  match a with
  | ⟨0, _⟩ => show win0_2.index t (0 : Fin 2) * 4000 + 1 * (z 0).val = (i 0).val; omega
  | ⟨1, _⟩ => show win0_2.index t (1 : Fin 2) * 1 + 1 * (z 1).val = (i 1).val; omega

/-- What point t writes back is rows 4000 t … of the scaled product of the arrays the region finds. -/
theorem flushed0 (c : Dev nD) (t : Fin cfg0.N) :
    (dat0 V c).flushed 3 t = ((cfg0.win 3).blk t).view.read (Elt Ideal) (G0 (V c main_arg0) (V c main_arg2) (V c main_v12)) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x128) hz, View.ld_unit_zero (S := S4000x1) hz]
  funext y
  obtain ⟨-, -, -, -, -, -, e6, e7⟩ := idx0 t
  show k0_pay1 (F := Ideal) (iblk0 V c 0 t) (iblk0 V c 1 t) (iblk0 V c 2 t) y
    = G0 (V c main_arg0) (V c main_arg2) (V c main_v12) (((cfg0.win 3).blk t).view.emb y)
  have hE0 : ((((cfg0.win 3).blk t).view.emb y) 0).val = t.val * 4000 + (y 0).val := by
    show win0_3.index t (0 : Fin 2) * 4000 + 1 * (y 0).val = _; omega
  have hE1 : ((((cfg0.win 3).blk t).view.emb y) 1).val = (y 1).val := by
    show win0_3.index t (1 : Fin 2) * 128 + 1 * (y 1).val = _; omega
  have hp := pay0_apply (iblk0 V c 0 t) (iblk0 V c 1 t) (iblk0 V c 2 t) ⟨(y 0).val, (y 0).isLt⟩ ⟨(y 1).val, (y 1).isLt⟩
  have hy : y = ix2 ⟨(y 0).val, (y 0).isLt⟩ ⟨(y 1).val, (y 1).isLt⟩ := eq_ix2 y
  refine (congrArg (k0_pay1 (F := Ideal) (iblk0 V c 0 t) (iblk0 V c 1 t) (iblk0 V c 2 t)) hy).trans (hp.trans ?_)
  unfold G0 g0
  refine congr (congrArg _ (Finset.sum_congr rfl fun k _ => ?_)) ?_
  · refine congr (congrArg _ ?_) ?_
    · exact rd0_0 V c t _ _ hE0 rfl
    · exact rd0_1 V c t _ _ rfl hE1
  · exact rd0_2 V c t _ _ hE0 rfl

/-- An index is in point t's block iff its row is among rows 4000 t … 4000 t + 3999. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v13).slice (win0_3.rect t)).set ↔ _
  rw [View.set_slice_whole, Rect.mem_set_unit]
  exact Iff.rfl

/-- Row r is in the block of point r / 4000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have key : ∀ t : Fin cfg0.N, t.val = (i 0).val / 4000 → i ∈ ((cfg0.win 3).blk t).view.set := by
    intro t ht
    obtain ⟨-, -, -, -, -, -, e6, e7⟩ := idx0 t
    rw [mem_blk0]
    intro a
    match a with
    | ⟨0, _⟩ => show win0_3.index t (0 : Fin 2) * 4000 ≤ (i 0).val ∧ (i 0).val < win0_3.index t (0 : Fin 2) * 4000 + 4000; omega
    | ⟨1, _⟩ => show win0_3.index t (1 : Fin 2) * 128 ≤ (i 1).val ∧ (i 1).val < win0_3.index t (1 : Fin 2) * 128 + 128; omega
  exact ⟨⟨(i 0).val / 4000, by show _ < 25; omega⟩, flush0_3 _, key _ rfl⟩

/-- After region 0 its result array is the scaled product of the arrays the region found. -/
theorem final0 (c : Dev nD) : (dat0 V c).arrAt 3 cfg0.N = G0 (V c main_arg0) (V c main_arg2) (V c main_v12) :=
  (dat0 V c).arrAt_eq_of_cover 3 _ (fun t _ => flushed0 V c t) cover0

end Cert.KernelIdeal.Reg

end
-- ==== Proof.KernelReg1.lean ====
/-
  Region 1 as one function of the arrays it finds: bias, clip, product, scale.

  Point t of the 25 works on rows 4000 t … 4000 t + 3999 of the aggregate and of the degree column, and on all of the
  bias row and of W2. Entry (r, j) of the result: the hidden row r — aggregate scaled by d(r), plus the bias, clipped
  below at zero — times column j of W2, scaled by d(r). The 25 row blocks tile the result.
-/
import proofs.«148335_j27685359190830_2_alg».proof.Proof.Gen.KernelIdeal.Frame
import proofs.«148335_j27685359190830_2_alg».proof.Proof.KernelPay

set_option maxRecDepth 16384

noncomputable section

namespace Cert.KernelIdeal.Reg

open Cert.KernelIdeal Cert.KernelIdeal.Gen Cert.KernelIdeal.Pay
open Idealize.ShloMosaic Idealize.ShloMosaic.ValueIdx Idealize.ShloMosaic.TcCoe Idealize.SL.Sem
open Idealize.ShloMosaic.Pipeline (Dat)

theorem hz1 : (![0, 0] : Fin 2 → Nat) = fun _ => 0 := funext fun a => by fin_cases a <;> rfl

variable (V : (c : Dev nD) → (b : Ref sig .tc) → Buf (Elt Ideal) ((c : Thread nD τ).loc b))

/-- The result of region 1 as an array. -/
def G1 (a : S100000x128.Idx → EReal) (d : S100000x1.Idx → EReal) (b : S1x128.Idx → EReal) (w : S128x64.Idx → EReal) : S100000x64.Idx → EReal :=
  fun i => g1 (R := 100000) a d b w ⟨(i 0).val, idx2_lt0 i⟩ ⟨(i 1).val, idx2_lt1 i⟩

theorem G1_apply (a : S100000x128.Idx → EReal) (d : S100000x1.Idx → EReal) (b : S1x128.Idx → EReal) (w : S128x64.Idx → EReal) (r : Fin 100000) (j : Fin 64) :
    G1 a d b w (ix2 r j) = g1 (R := 100000) a d b w r j := rfl

/-- The block index maps over the grid. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem rd1_0 (c : Dev nD) (t : Fin cfg1.N) (z : S4000x128.Idx) (i : S100000x128.Idx)
    (h0 : (i 0).val = t.val * 4000 + (z 0).val) (h1 : (i 1).val = (z 1).val) :
    iblk1 V c 0 t z = V c main_v24 i := by
  have e := idx1 t
  show V c main_v24 (((cfg1.win 0).blk t).view.emb z) = V c main_v24 i
  refine congrArg (V c main_v24) (funext fun a => Fin.ext ?_)
  match a with
  | ⟨0, _⟩ => show win1_0.index t (0 : Fin 2) * 4000 + 1 * (z 0).val = (i 0).val; omega
  | ⟨1, _⟩ => show win1_0.index t (1 : Fin 2) * 128 + 1 * (z 1).val = (i 1).val; omega

theorem rd1_1 (c : Dev nD) (t : Fin cfg1.N) (z : S4000x1.Idx) (i : S100000x1.Idx)
    (h0 : (i 0).val = t.val * 4000 + (z 0).val) (h1 : (i 1).val = (z 1).val) :
    iblk1 V c 1 t z = V c main_v12 i := by
  have e := idx1 t
  show V c main_v12 (((cfg1.win 1).blk t).view.emb z) = V c main_v12 i
  refine congrArg (V c main_v12) (funext fun a => Fin.ext ?_)
  match a with
  | ⟨0, _⟩ => show win1_1.index t (0 : Fin 2) * 4000 + 1 * (z 0).val = (i 0).val; omega
  | ⟨1, _⟩ => show win1_1.index t (1 : Fin 2) * 1 + 1 * (z 1).val = (i 1).val; omega

theorem rd1_2 (c : Dev nD) (t : Fin cfg1.N) (z : S1x128.Idx) (i : S1x128.Idx)
    (h0 : (i 0).val = (z 0).val) (h1 : (i 1).val = (z 1).val) :
    iblk1 V c 2 t z = V c main_v25 i := by
  have e := idx1 t
  show V c main_v25 (((cfg1.win 2).blk t).view.emb z) = V c main_v25 i
  refine congrArg (V c main_v25) (funext fun a => Fin.ext ?_)
  match a with
  | ⟨0, _⟩ => show win1_2.index t (0 : Fin 2) * 1 + 1 * (z 0).val = (i 0).val; omega
  | ⟨1, _⟩ => show win1_2.index t (1 : Fin 2) * 128 + 1 * (z 1).val = (i 1).val; omega

theorem rd1_3 (c : Dev nD) (t : Fin cfg1.N) (z : S128x64.Idx) (i : S128x64.Idx)
    (h0 : (i 0).val = (z 0).val) (h1 : (i 1).val = (z 1).val) :
    iblk1 V c 3 t z = V c main_arg4 i := by
  have e := idx1 t
  show V c main_arg4 (((cfg1.win 3).blk t).view.emb z) = V c main_arg4 i
  refine congrArg (V c main_arg4) (funext fun a => Fin.ext ?_)
  match a with
  | ⟨0, _⟩ => show win1_3.index t (0 : Fin 2) * 128 + 1 * (z 0).val = (i 0).val; omega
  | ⟨1, _⟩ => show win1_3.index t (1 : Fin 2) * 64 + 1 * (z 1).val = (i 1).val; omega

/-- What point t writes back is rows 4000 t … of that function of the arrays the region finds. -/
theorem flushed1 (c : Dev nD) (t : Fin cfg1.N) :
    (dat1 V c).flushed 4 t = ((cfg1.win 4).blk t).view.read (Elt Ideal) (G1 (V c main_v24) (V c main_v12) (V c main_v25) (V c main_arg4)) := by
  show (cfg1.win 4).cut (grid1.coords t) ((dat1 V c).after 4 t) = _
  rw [after1_4]
  unfold out1_4
  rw [View.canon_unit_zero hz1]
  simp only [View.ld_unit_zero (S := S4000x128) hz1, View.ld_unit_zero (S := S4000x1) hz1, View.ld_unit_zero (S := S1x128) hz1, View.ld_unit_zero (S := S128x64) hz1]
  funext y
  have e := idx1 t
  show k1_pay1 (F := Ideal) (iblk1 V c 1 t) (iblk1 V c 0 t) (iblk1 V c 2 t) (iblk1 V c 3 t) y
    = G1 (V c main_v24) (V c main_v12) (V c main_v25) (V c main_arg4) (((cfg1.win 4).blk t).view.emb y)
  have hE0 : ((((cfg1.win 4).blk t).view.emb y) 0).val = t.val * 4000 + (y 0).val := by
    show win1_4.index t (0 : Fin 2) * 4000 + 1 * (y 0).val = _; omega
  have hE1 : ((((cfg1.win 4).blk t).view.emb y) 1).val = (y 1).val := by
    show win1_4.index t (1 : Fin 2) * 64 + 1 * (y 1).val = _; omega
  have hp := pay1_apply (iblk1 V c 1 t) (iblk1 V c 0 t) (iblk1 V c 2 t) (iblk1 V c 3 t) ⟨(y 0).val, (y 0).isLt⟩ ⟨(y 1).val, (y 1).isLt⟩
  have hy : y = ix2 ⟨(y 0).val, (y 0).isLt⟩ ⟨(y 1).val, (y 1).isLt⟩ := eq_ix2 y
  refine (congrArg (k1_pay1 (F := Ideal) (iblk1 V c 1 t) (iblk1 V c 0 t) (iblk1 V c 2 t) (iblk1 V c 3 t)) hy).trans (hp.trans ?_)
  unfold G1
  have hj : (⟨(y 1).val, (y 1).isLt⟩ : Fin 64) = ⟨((((cfg1.win 4).blk t).view.emb y) 1).val, idx2_lt1 _⟩ := Fin.ext hE1.symm
  rw [← hj]
  exact g1_congr (fun k => rd1_0 V c t _ _ hE0 rfl) (rd1_1 V c t _ _ hE0 rfl) (fun k => rd1_2 V c t _ _ rfl rfl) (fun k => rd1_3 V c t _ _ rfl rfl)

/-- An index is in point t's block iff its row is among rows 4000 t … 4000 t + 3999. -/
theorem mem_blk1 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v26).slice (win1_4.rect t)).set ↔ _
  rw [View.set_slice_whole, Rect.mem_set_unit]
  exact Iff.rfl

/-- Row r is in the block of point r / 4000. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have key : ∀ t : Fin cfg1.N, t.val = (i 0).val / 4000 → i ∈ ((cfg1.win 4).blk t).view.set := by
    intro t ht
    have e := idx1 t
    rw [mem_blk1]
    intro a
    match a with
    | ⟨0, _⟩ => show win1_4.index t (0 : Fin 2) * 4000 ≤ (i 0).val ∧ (i 0).val < win1_4.index t (0 : Fin 2) * 4000 + 4000; omega
    | ⟨1, _⟩ => show win1_4.index t (1 : Fin 2) * 64 ≤ (i 1).val ∧ (i 1).val < win1_4.index t (1 : Fin 2) * 64 + 64; omega
  exact ⟨⟨(i 0).val / 4000, by show _ < 25; omega⟩, flush1_4 _, key _ rfl⟩

/-- After region 1 its result array is that function of the arrays the region found. -/
theorem final1 (c : Dev nD) : (dat1 V c).arrAt 4 cfg1.N = G1 (V c main_v24) (V c main_v12) (V c main_v25) (V c main_arg4) :=
  (dat1 V c).arrAt_eq_of_cover 4 _ (fun t _ => flushed1 V c t) cover1

end Cert.KernelIdeal.Reg

end
-- ==== Proof.KernelReg2.lean ====
/-
  Region 2 as one function of the arrays it finds: scale and bias.

  Point t of the 25 works on rows 4000 t … 4000 t + 3999 of the aggregate and of the degree column, and on the bias
  row. Entry (r, j) of the result is the aggregate at (r, j) scaled by d(r), plus the bias at j. The 25 row blocks
  tile the result.
-/
import proofs.«148335_j27685359190830_2_alg».proof.Proof.Gen.KernelIdeal.Frame
import proofs.«148335_j27685359190830_2_alg».proof.Proof.KernelPay

set_option maxRecDepth 16384

noncomputable section

namespace Cert.KernelIdeal.Reg

open Cert.KernelIdeal Cert.KernelIdeal.Gen Cert.KernelIdeal.Pay
open Idealize.ShloMosaic Idealize.ShloMosaic.ValueIdx Idealize.ShloMosaic.TcCoe Idealize.SL.Sem
open Idealize.ShloMosaic.Pipeline (Dat)

theorem hz2 : (![0, 0] : Fin 2 → Nat) = fun _ => 0 := funext fun a => by fin_cases a <;> rfl

variable (V : (c : Dev nD) → (b : Ref sig .tc) → Buf (Elt Ideal) ((c : Thread nD τ).loc b))

/-- Entry (r, j): the aggregate scaled by d(r), plus the bias. -/
def g2 (a : S100000x64.Idx → EReal) (d : S100000x1.Idx → EReal) (b : S1x64.Idx → EReal) (r : Fin 100000) (j : Fin 64) : EReal :=
  a (ix2 r j) * d (ix2 r (0 : Fin 1)) + b (ix2 (0 : Fin 1) j)

/-- The result of region 2 as an array. -/
def G2 (a : S100000x64.Idx → EReal) (d : S100000x1.Idx → EReal) (b : S1x64.Idx → EReal) : S100000x64.Idx → EReal :=
  fun i => g2 a d b ⟨(i 0).val, idx2_lt0 i⟩ ⟨(i 1).val, idx2_lt1 i⟩

theorem G2_apply (a : S100000x64.Idx → EReal) (d : S100000x1.Idx → EReal) (b : S1x64.Idx → EReal) (r : Fin 100000) (j : Fin 64) :
    G2 a d b (ix2 r j) = g2 a d b r j := rfl

/-- The block index maps over the grid. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem rd2_0 (c : Dev nD) (t : Fin cfg2.N) (z : S4000x64.Idx) (i : S100000x64.Idx)
    (h0 : (i 0).val = t.val * 4000 + (z 0).val) (h1 : (i 1).val = (z 1).val) :
    iblk2 V c 0 t z = V c main_v37 i := by
  have e := idx2 t
  show V c main_v37 (((cfg2.win 0).blk t).view.emb z) = V c main_v37 i
  refine congrArg (V c main_v37) (funext fun a => Fin.ext ?_)
  match a with
  | ⟨0, _⟩ => show win2_0.index t (0 : Fin 2) * 4000 + 1 * (z 0).val = (i 0).val; omega
  | ⟨1, _⟩ => show win2_0.index t (1 : Fin 2) * 64 + 1 * (z 1).val = (i 1).val; omega

theorem rd2_1 (c : Dev nD) (t : Fin cfg2.N) (z : S4000x1.Idx) (i : S100000x1.Idx)
    (h0 : (i 0).val = t.val * 4000 + (z 0).val) (h1 : (i 1).val = (z 1).val) :
    iblk2 V c 1 t z = V c main_v12 i := by
  have e := idx2 t
  show V c main_v12 (((cfg2.win 1).blk t).view.emb z) = V c main_v12 i
  refine congrArg (V c main_v12) (funext fun a => Fin.ext ?_)
  match a with
  | ⟨0, _⟩ => show win2_1.index t (0 : Fin 2) * 4000 + 1 * (z 0).val = (i 0).val; omega
  | ⟨1, _⟩ => show win2_1.index t (1 : Fin 2) * 1 + 1 * (z 1).val = (i 1).val; omega

theorem rd2_2 (c : Dev nD) (t : Fin cfg2.N) (z : S1x64.Idx) (i : S1x64.Idx)
    (h0 : (i 0).val = (z 0).val) (h1 : (i 1).val = (z 1).val) :
    iblk2 V c 2 t z = V c main_v38 i := by
  have e := idx2 t
  show V c main_v38 (((cfg2.win 2).blk t).view.emb z) = V c main_v38 i
  refine congrArg (V c main_v38) (funext fun a => Fin.ext ?_)
  match a with
  | ⟨0, _⟩ => show win2_2.index t (0 : Fin 2) * 1 + 1 * (z 0).val = (i 0).val; omega
  | ⟨1, _⟩ => show win2_2.index t (1 : Fin 2) * 64 + 1 * (z 1).val = (i 1).val; omega

/-- What point t writes back is rows 4000 t … of that function of the arrays the region finds. -/
theorem flushed2 (c : Dev nD) (t : Fin cfg2.N) :
    (dat2 V c).flushed 3 t = ((cfg2.win 3).blk t).view.read (Elt Ideal) (G2 (V c main_v37) (V c main_v12) (V c main_v38)) := by
  show (cfg2.win 3).cut (grid2.coords t) ((dat2 V c).after 3 t) = _
  rw [after2_3]
  unfold out2_3
  rw [View.canon_unit_zero hz2]
  simp only [View.ld_unit_zero (S := S4000x64) hz2, View.ld_unit_zero (S := S4000x1) hz2, View.ld_unit_zero (S := S1x64) hz2]
  funext y
  have e := idx2 t
  show k2_pay1 (F := Ideal) (iblk2 V c 0 t) (iblk2 V c 1 t) (iblk2 V c 2 t) y
    = G2 (V c main_v37) (V c main_v12) (V c main_v38) (((cfg2.win 3).blk t).view.emb y)
  have hE0 : ((((cfg2.win 3).blk t).view.emb y) 0).val = t.val * 4000 + (y 0).val := by
    show win2_3.index t (0 : Fin 2) * 4000 + 1 * (y 0).val = _; omega
  have hE1 : ((((cfg2.win 3).blk t).view.emb y) 1).val = (y 1).val := by
    show win2_3.index t (1 : Fin 2) * 64 + 1 * (y 1).val = _; omega
  have hp := pay2_apply (iblk2 V c 0 t) (iblk2 V c 1 t) (iblk2 V c 2 t) ⟨(y 0).val, (y 0).isLt⟩ ⟨(y 1).val, (y 1).isLt⟩
  have hy : y = ix2 ⟨(y 0).val, (y 0).isLt⟩ ⟨(y 1).val, (y 1).isLt⟩ := eq_ix2 y
  refine (congrArg (k2_pay1 (F := Ideal) (iblk2 V c 0 t) (iblk2 V c 1 t) (iblk2 V c 2 t)) hy).trans (hp.trans ?_)
  unfold G2 g2
  refine congr (congrArg _ (congr (congrArg _ ?_) ?_)) ?_
  · exact rd2_0 V c t _ _ hE0 hE1
  · exact rd2_1 V c t _ _ hE0 rfl
  · exact rd2_2 V c t _ _ rfl hE1

/-- An index is in point t's block iff its row is among rows 4000 t … 4000 t + 3999. -/
theorem mem_blk2 (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v39).slice (win2_3.rect t)).set ↔ _
  rw [View.set_slice_whole, Rect.mem_set_unit]
  exact Iff.rfl

/-- Row r is in the block of point r / 4000. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have key : ∀ t : Fin cfg2.N, t.val = (i 0).val / 4000 → i ∈ ((cfg2.win 3).blk t).view.set := by
    intro t ht
    have e := idx2 t
    rw [mem_blk2]
    intro a
    match a with
    | ⟨0, _⟩ => show win2_3.index t (0 : Fin 2) * 4000 ≤ (i 0).val ∧ (i 0).val < win2_3.index t (0 : Fin 2) * 4000 + 4000; omega
    | ⟨1, _⟩ => show win2_3.index t (1 : Fin 2) * 64 ≤ (i 1).val ∧ (i 1).val < win2_3.index t (1 : Fin 2) * 64 + 64; omega
  exact ⟨⟨(i 0).val / 4000, by show _ < 25; omega⟩, flush2_3 _, key _ rfl⟩

/-- After region 2 its result array is that function of the arrays the region found. -/
theorem final2 (c : Dev nD) : (dat2 V c).arrAt 3 cfg2.N = G2 (V c main_v37) (V c main_v12) (V c main_v38) :=
  (dat2 V c).arrAt_eq_of_cover 3 _ (fun t _ => flushed2 V c t) cover2

end Cert.KernelIdeal.Reg

end
-- ==== Proof.KernelHost.lean ====
/-
  The host stretches of the idealized kernel program, read back, and the program's result as one function of its
  arguments.

  Before region 0 the host computes the edge endpoints with the nodes' own loops appended, the degree of each node
  as a scatter-add of ones, its reciprocal square root, and that as a column. Between regions it gathers the rows of
  the last region's result at the (shifted, clamped) sources and scatter-adds them at the targets. The index arrays and
  the degree factor are the very arrays the reference program computes, so they are named by the reference's stages.
-/
import proofs.«148335_j27685359190830_2_alg».proof.Proof.Gen.KernelIdeal.Frame
import proofs.«148335_j27685359190830_2_alg».proof.Proof.Gen.ReferenceIdeal.Read
import proofs.«148335_j27685359190830_2_alg».proof.Proof.KernelReg0
import proofs.«148335_j27685359190830_2_alg».proof.Proof.KernelReg1
import proofs.«148335_j27685359190830_2_alg».proof.Proof.KernelReg2
import Idealize.ShloMosaic.Lib.StableHlo.Run

set_option maxRecDepth 16384

noncomputable section

namespace Cert.KernelIdeal.Host

open Cert.KernelIdeal Cert.KernelIdeal.Gen Cert.KernelIdeal.Reg
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg) (c : Dev nD)

/-- The edge array as launched. -/
abbrev eArr : (⟨S2x800000, .i32⟩ : BufTy).Contents (Elt Ideal) := m ((c : Thread nD τ).loc main_arg1)

/-! ## Before region 0 -/

theorem w1_arg0 : W1 m ρ c (Proc.devRef .tc main_arg0) = m ((c : Thread nD τ).loc main_arg0) := by
  dsimp only [W1, hostOps0]; after_results
theorem w1_arg2 : W1 m ρ c (Proc.devRef .tc main_arg2) = m ((c : Thread nD τ).loc main_arg2) := by
  dsimp only [W1, hostOps0]; after_results
theorem w1_arg3 : W1 m ρ c (Proc.devRef .tc main_arg3) = m ((c : Thread nD τ).loc main_arg3) := by
  dsimp only [W1, hostOps0]; after_results
theorem w1_arg4 : W1 m ρ c (Proc.devRef .tc main_arg4) = m ((c : Thread nD τ).loc main_arg4) := by
  dsimp only [W1, hostOps0]; after_results
theorem w1_arg5 : W1 m ρ c (Proc.devRef .tc main_arg5) = m ((c : Thread nD τ).loc main_arg5) := by
  dsimp only [W1, hostOps0]; after_results

/-- The sources, with the nodes' own indices appended: the reference's stage of the same name. -/
theorem w1_v3 : W1 m ρ c (Proc.devRef .tc main_v3) = Cert.ReferenceIdeal.Read.val_main_v3 (F := Ideal) (eArr m c) := by
  dsimp only [W1, hostOps0]; after_results; rfl
/-- The targets, with the nodes' own indices appended. -/
theorem w1_v6 : W1 m ρ c (Proc.devRef .tc main_v6) = Cert.ReferenceIdeal.Read.val_main_v6 (F := Ideal) (eArr m c) := by
  dsimp only [W1, hostOps0]; after_results; rfl

/-- The degree factor as a column. -/
def qcol (e : (⟨S2x800000, .i32⟩ : BufTy).Contents (Elt Ideal)) : S100000x1.Idx → EReal :=
  shapeCast S100000x1 (Cert.ReferenceIdeal.Read.val_main_v11 (F := Ideal) e) shapeCasts_S100000_S100000x1

theorem w1_v12 : W1 m ρ c (Proc.devRef .tc main_v12) = qcol (eArr m c) := by
  dsimp only [W1, hostOps0]; after_results; rfl

/-! ## After region 0 -/

/-- Region 0's result: the scaled product of x, W1 and the degree column. -/
theorem w2_v13 : W2 m ρ c (Proc.devRef .tc main_v13) = G0 (m ((c : Thread nD τ).loc main_arg0)) (m ((c : Thread nD τ).loc main_arg2)) (qcol (eArr m c)) := by
  rw [show W2 m ρ c (Proc.devRef .tc main_v13) = (dat0 (V1 m ρ) c).arrAt 3 cfg0.N from W2_arr m ρ c 3, final0]
  show G0 (W1 m ρ c (Proc.devRef .tc main_arg0)) (W1 m ρ c (Proc.devRef .tc main_arg2)) (W1 m ρ c (Proc.devRef .tc main_v12)) = _
  rw [w1_arg0, w1_arg2, w1_v12]

theorem w2_v3 : W2 m ρ c (Proc.devRef .tc main_v3) = Cert.ReferenceIdeal.Read.val_main_v3 (F := Ideal) (eArr m c) :=
  (W2_of_ne m ρ c main_v3 (by decide)).trans (w1_v3 m ρ c)
theorem w2_v6 : W2 m ρ c (Proc.devRef .tc main_v6) = Cert.ReferenceIdeal.Read.val_main_v6 (F := Ideal) (eArr m c) :=
  (W2_of_ne m ρ c main_v6 (by decide)).trans (w1_v6 m ρ c)
theorem w2_v12 : W2 m ρ c (Proc.devRef .tc main_v12) = qcol (eArr m c) :=
  ((W2_arr m ρ c 2).trans (((dat0 (V1 m ρ) c).arrAt_in 2 rfl _).trans (A_eq0 (V1 m ρ) c 2))).trans (w1_v12 m ρ c)
theorem w2_arg3 : W2 m ρ c (Proc.devRef .tc main_arg3) = m ((c : Thread nD τ).loc main_arg3) :=
  (W2_of_ne m ρ c main_arg3 (by decide)).trans (w1_arg3 m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)

/-! ## Before region 1 -/

/-- The first aggregate: the rows of the scaled product gathered at the sources, added up at the targets. -/
def agg1 (x : S100000x256.Idx → EReal) (w1 : S256x128.Idx → EReal) (e : (⟨S2x800000, .i32⟩ : BufTy).Contents (Elt Ideal)) :
    S100000x128.Idx → EReal :=
  Host.scatterAdd (F := Ideal) (φ := .f32) scatter_S100000x128_S900000x1_S900000x128_1_0_0_1
    (broadcastInDim S100000x128 ![] bcast_S_S100000x128 (constant (F := Ideal) S_ .f32 0x00000000#32))
    (Cert.ReferenceIdeal.Read.val_main_v9 (F := Ideal) e)
    (extf .f32 (Host.gather gather_S100000x128_S900000x1_S900000x128_1_0_n_n_0_1_1128 (G0 x w1 (qcol e)) (Cert.ReferenceIdeal.Read.val_main_v17 (F := Ideal) e) : FVec Ideal S900000x128 .bf16) bitsLt_bf16_f32)

theorem w3_v24 : W3 m ρ c (Proc.devRef .tc main_v24) = agg1 (m ((c : Thread nD τ).loc main_arg0)) (m ((c : Thread nD τ).loc main_arg2)) (eArr m c) := by
  dsimp only [W3, hostOps1]; after_results
  rw [w2_v3, w2_v6, w2_v13]; rfl
/-- The first bias as a row. -/
theorem w3_v25 : W3 m ρ c (Proc.devRef .tc main_v25) = shapeCast S1x128 (m ((c : Thread nD τ).loc main_arg3)) shapeCasts_S128_S1x128 := by
  dsimp only [W3, hostOps1]; after_results
  rw [w2_arg3]; rfl
theorem w3_v12 : W3 m ρ c (Proc.devRef .tc main_v12) = qcol (eArr m c) := by
  dsimp only [W3, hostOps1]; after_results
  exact w2_v12 m ρ c
theorem w3_arg4 : W3 m ρ c (Proc.devRef .tc main_arg4) = m ((c : Thread nD τ).loc main_arg4) := by
  dsimp only [W3, hostOps1]; after_results
  exact w2_arg4 m ρ c
theorem w3_arg5 : W3 m ρ c (Proc.devRef .tc main_arg5) = m ((c : Thread nD τ).loc main_arg5) := by
  dsimp only [W3, hostOps1]; after_results
  exact w2_arg5 m ρ c
theorem w3_v3 : W3 m ρ c (Proc.devRef .tc main_v3) = Cert.ReferenceIdeal.Read.val_main_v3 (F := Ideal) (eArr m c) := by
  dsimp only [W3, hostOps1]; after_results
  exact w2_v3 m ρ c
theorem w3_v6 : W3 m ρ c (Proc.devRef .tc main_v6) = Cert.ReferenceIdeal.Read.val_main_v6 (F := Ideal) (eArr m c) := by
  dsimp only [W3, hostOps1]; after_results
  exact w2_v6 m ρ c

/-! ## After region 1 -/

/-- The second scaled product. -/
def hw2 (x : S100000x256.Idx → EReal) (w1 : S256x128.Idx → EReal) (b1 : S128.Idx → EReal) (w2 : S128x64.Idx → EReal)
    (e : (⟨S2x800000, .i32⟩ : BufTy).Contents (Elt Ideal)) : S100000x64.Idx → EReal :=
  G1 (agg1 x w1 e) (qcol e) (shapeCast S1x128 b1 shapeCasts_S128_S1x128) w2

theorem w4_v26 : W4 m ρ c (Proc.devRef .tc main_v26)
    = hw2 (m ((c : Thread nD τ).loc main_arg0)) (m ((c : Thread nD τ).loc main_arg2)) (m ((c : Thread nD τ).loc main_arg3)) (m ((c : Thread nD τ).loc main_arg4)) (eArr m c) := by
  rw [show W4 m ρ c (Proc.devRef .tc main_v26) = (dat1 (V3 m ρ) c).arrAt 4 cfg1.N from W4_arr m ρ c 4, final1]
  show G1 (W3 m ρ c (Proc.devRef .tc main_v24)) (W3 m ρ c (Proc.devRef .tc main_v12)) (W3 m ρ c (Proc.devRef .tc main_v25)) (W3 m ρ c (Proc.devRef .tc main_arg4)) = _
  rw [w3_v24, w3_v12, w3_v25, w3_arg4]; rfl

theorem w4_v3 : W4 m ρ c (Proc.devRef .tc main_v3) = Cert.ReferenceIdeal.Read.val_main_v3 (F := Ideal) (eArr m c) :=
  (W4_of_ne m ρ c main_v3 (by decide)).trans (w3_v3 m ρ c)
theorem w4_v6 : W4 m ρ c (Proc.devRef .tc main_v6) = Cert.ReferenceIdeal.Read.val_main_v6 (F := Ideal) (eArr m c) :=
  (W4_of_ne m ρ c main_v6 (by decide)).trans (w3_v6 m ρ c)
theorem w4_v12 : W4 m ρ c (Proc.devRef .tc main_v12) = qcol (eArr m c) :=
  ((W4_arr m ρ c 1).trans (((dat1 (V3 m ρ) c).arrAt_in 1 rfl _).trans (A_eq1 (V3 m ρ) c 1))).trans (w3_v12 m ρ c)
theorem w4_arg5 : W4 m ρ c (Proc.devRef .tc main_arg5) = m ((c : Thread nD τ).loc main_arg5) :=
  (W4_of_ne m ρ c main_arg5 (by decide)).trans (w3_arg5 m ρ c)

/-! ## Before region 2 -/

/-- The second aggregate. -/
def agg2 (x : S100000x256.Idx → EReal) (w1 : S256x128.Idx → EReal) (b1 : S128.Idx → EReal) (w2 : S128x64.Idx → EReal)
    (e : (⟨S2x800000, .i32⟩ : BufTy).Contents (Elt Ideal)) : S100000x64.Idx → EReal :=
  Host.scatterAdd (F := Ideal) (φ := .f32) scatter_S100000x64_S900000x1_S900000x64_1_0_0_1
    (broadcastInDim S100000x64 ![] bcast_S_S100000x64 (constant (F := Ideal) S_ .f32 0x00000000#32))
    (Cert.ReferenceIdeal.Read.val_main_v9 (F := Ideal) e)
    (extf .f32 (Host.gather gather_S100000x64_S900000x1_S900000x64_1_0_n_n_0_1_164 (hw2 x w1 b1 w2 e) (Cert.ReferenceIdeal.Read.val_main_v17 (F := Ideal) e) : FVec Ideal S900000x64 .bf16) bitsLt_bf16_f32)

theorem w5_v37 : W5 m ρ c (Proc.devRef .tc main_v37)
    = agg2 (m ((c : Thread nD τ).loc main_arg0)) (m ((c : Thread nD τ).loc main_arg2)) (m ((c : Thread nD τ).loc main_arg3)) (m ((c : Thread nD τ).loc main_arg4)) (eArr m c) := by
  dsimp only [W5, hostOps2]; after_results
  rw [w4_v3, w4_v6, w4_v26]; rfl
theorem w5_v38 : W5 m ρ c (Proc.devRef .tc main_v38) = shapeCast S1x64 (m ((c : Thread nD τ).loc main_arg5)) shapeCasts_S64_S1x64 := by
  dsimp only [W5, hostOps2]; after_results
  rw [w4_arg5]; rfl
theorem w5_v12 : W5 m ρ c (Proc.devRef .tc main_v12) = qcol (eArr m c) := by
  dsimp only [W5, hostOps2]; after_results
  exact w4_v12 m ρ c

/-! ## After region 2: the result -/

/-- The program's result as one function of its arguments. -/
def out (x : S100000x256.Idx → EReal) (e : (⟨S2x800000, .i32⟩ : BufTy).Contents (Elt Ideal)) (w1 : S256x128.Idx → EReal)
    (b1 : S128.Idx → EReal) (w2 : S128x64.Idx → EReal) (b2 : S64.Idx → EReal) : S100000x64.Idx → EReal :=
  G2 (agg2 x w1 b1 w2 e) (qcol e) (shapeCast S1x64 b2 shapeCasts_S64_S1x64)

theorem w6_v39 : W6 m ρ c (Proc.devRef .tc main_v39)
    = out (m ((c : Thread nD τ).loc main_arg0)) (eArr m c) (m ((c : Thread nD τ).loc main_arg2)) (m ((c : Thread nD τ).loc main_arg3)) (m ((c : Thread nD τ).loc main_arg4)) (m ((c : Thread nD τ).loc main_arg5)) := by
  rw [show W6 m ρ c (Proc.devRef .tc main_v39) = (dat2 (V5 m ρ) c).arrAt 3 cfg2.N from W6_arr m ρ c 3, final2]
  show G2 (W5 m ρ c (Proc.devRef .tc main_v37)) (W5 m ρ c (Proc.devRef .tc main_v12)) (W5 m ρ c (Proc.devRef .tc main_v38)) = _
  rw [w5_v37, w5_v12, w5_v38]; rfl

end Cert.KernelIdeal.Host

end
-- ==== Proof.LibRowIndex.lean ====
/-
  A scatter-add of rows and a gather of rows, read at an index.

  Both operations address the rows of a table by an integer read off an index array, one integer per update (or per
  result row): the index array has shape [E, 1], entry (e, 0) naming the row that update (or result) row e goes to
  (or comes from). For the scatter the integer is read signed and NOT clamped: update row e lands on table row n
  exactly when the integer IS n, and an update whose integer is outside the table is dropped. For the gather it is
  read signed and clamped into the table.
-/
import Idealize.ShloMosaic.Lib.ValueIdx

namespace Cert.Lib.RowIndex

open Idealize.ShloMosaic Idealize.ShloMosaic.ValueIdx

/-- The dimension numbers of a scatter of E scalars into a vector of N entries: one index per update, naming the
    entry; no window. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The index array is read at (e, 0): the update's one coordinate on axis 0, the one component of the index vector
    on axis 1. -/
private theorem vec_siIdx {N E : Nat} (wf : ScatterDims.WF ⟨1, ![N]⟩ ⟨2, ![E, 1]⟩ ⟨1, ![E]⟩ [] [0] [0] 1)
    (j : (⟨1, ![E]⟩ : Shape).Idx) (c : Fin (vecDims N E wf).scatterDimsToOperandDims.length) :
    (vecDims N E wf).siIdx j c = ix2 (j 0) 0 := by
  funext b; refine Fin.ext ?_
  match b with
  | ⟨0, _⟩ => rfl
  | ⟨1, _⟩ =>
    have : c.val < 1 := c.isLt
    show c.val = 0
    omega

/-- On the vector's one axis the start is the integer at (e, 0): the axis is the one the index map names. -/
private theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (vecDims N E wf).start j idx a = (idx (ix2 (j 0) 0)).toInt := by
  obtain rfl : a = 0 := Subsingleton.elim _ _
  unfold ScatterDims.start
  rw [dif_pos (show (0 : Fin 1) ∈ (vecDims N E wf).scatterDimsToOperandDims from List.mem_singleton.mpr rfl)]
  rw [vec_siIdx]
  rfl

/-- There is no window: the vector's one axis is an inserted one, so the window coordinate on it is 0. -/
private theorem vec_window {N E : Nat} (wf : ScatterDims.WF ⟨1, ![N]⟩ ⟨2, ![E, 1]⟩ ⟨1, ![E]⟩ [] [0] [0] 1)
    (j : (⟨1, ![E]⟩ : Shape).Idx) (a : Fin 1) :
    (vecDims N E wf).window j a = 0 := by
  unfold ScatterDims.window
  rw [dif_neg]
  obtain rfl : a = 0 := Subsingleton.elim _ _
  show (0 : Fin 1) ∉ (List.finRange 1).filter (fun a => decide (a ∉ [(0 : Fin 1)]))
  decide

/-- Update e of a vector scatter lands on entry i exactly when the integer at (e, 0) is i. -/
theorem vecDims_resultIdx?_eq_some_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  unfold ScatterDims.resultIdx?
  have hi : (i 0).val < N := (i 0).isLt
  constructor
  · -- the landing index exists: read the equality of indices on axis 0
    intro h
    split at h
    · rename_i hb
      have h0 := congrArg Fin.val (congrFun (Option.some.inj h) 0)
      have hb0 := hb 0
      simp only [vec_start, vec_window] at h0 hb0
      omega
    · exact absurd h (by simp)
  · -- the integer is i's coordinate, which is inside the vector
    intro hz
    have hb : ∀ a, 0 ≤ (vecDims N E wf).start j idx a + (vecDims N E wf).window j a ∧
        (vecDims N E wf).start j idx a + (vecDims N E wf).window j a < (⟨1, ![N]⟩ : Shape).size a := by
      intro a
      obtain rfl : a = 0 := Subsingleton.elim _ _
      rw [vec_start, vec_window, hz]
      show (0 : Int) ≤ ((i 0).val : Int) + ((0 : Nat) : Int) ∧ ((i 0).val : Int) + ((0 : Nat) : Int) < (N : Int)
      omega
    rw [dif_pos hb]
    congr 1
    funext a
    obtain rfl : a = 0 := Subsingleton.elim _ _
    refine Fin.ext ?_
    show ((vecDims N E wf).start j idx 0 + (vecDims N E wf).window j 0).toNat = (i 0).val
    rw [vec_start, vec_window, hz]
    omega

/-- The dimension numbers of a scatter of E rows of C entries into a table of N rows: one index per update row,
    naming the table row; the window is the whole row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index array is read at (e, 0): the update row's coordinate on axis 0, the one component of the index vector
    on axis 1. -/
private theorem row_siIdx {N E C : Nat} (wf : ScatterDims.WF ⟨2, ![N, C]⟩ ⟨2, ![E, 1]⟩ ⟨2, ![E, C]⟩ [1] [0] [0] 1)
    (j : (⟨2, ![E, C]⟩ : Shape).Idx) (c : Fin (rowDims N E C wf).scatterDimsToOperandDims.length) :
    (rowDims N E C wf).siIdx j c = ix2 (j 0) 0 := by
  funext b; refine Fin.ext ?_
  match b with
  | ⟨0, _⟩ => rfl
  | ⟨1, _⟩ =>
    have : c.val < 1 := c.isLt
    show c.val = 0
    omega

/-- On the table's row axis the start is the integer at (e, 0): the index map names that axis. -/
private theorem row_start0 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  rw [row_siIdx]
  rfl

/-- On the column axis the start is 0: the index map does not name it. -/
private theorem row_start1 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 1 = 0 := by
  unfold ScatterDims.start
  rw [dif_neg]
  show (1 : Fin 2) ∉ [(0 : Fin 2)]
  decide

/-- The row axis is an inserted one: the window coordinate on it is 0. -/
private theorem row_window0 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 0 = 0 := by
  unfold ScatterDims.window
  rw [dif_neg]
  show (0 : Fin 2) ∉ (List.finRange 2).filter (fun a => decide (a ∉ [(0 : Fin 2)]))
  decide

/-- The column axis is the one kept axis, and the updates' one window axis goes to it: the window coordinate is the
    update's column. -/
private theorem row_window1 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 1 = (j 1).val := by
  unfold ScatterDims.window
  have h1 : (1 : Fin 2) ∈ (rowDims N E C wf).sKept := by
    show (1 : Fin 2) ∈ (List.finRange 2).filter (fun a => decide (a ∉ [(0 : Fin 2)]))
    decide
  rw [dif_pos h1]
  rfl

/-- Entry (e, f) of the updates of a row scatter lands on table entry (n, f') exactly when the integer at (e, 0) is n
    and f = f'. -/
theorem rowDims_resultIdx?_eq_some_iff {N E C w : Nat}
    (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  unfold ScatterDims.resultIdx?
  have hi0 : (i 0).val < N := idx2_lt0 i
  have hi1 : (i 1).val < C := idx2_lt1 i
  have hj1 : (j 1).val < C := idx2_lt1 j
  constructor
  · -- the landing index exists: read the equality of indices on each axis
    intro h
    split at h
    · rename_i hb
      have h0 := congrArg Fin.val (congrFun (Option.some.inj h) 0)
      have h1 := congrArg Fin.val (congrFun (Option.some.inj h) 1)
      have hb0 := hb 0
      simp only [row_start0, row_start1, row_window0, row_window1] at h0 h1 hb0
      omega
    · exact absurd h (by simp)
  · -- the integer is i's row, inside the table; the column is the update's own, inside the row
    rintro ⟨hz, hc⟩
    have hb : ∀ a, 0 ≤ (rowDims N E C wf).start j idx a + (rowDims N E C wf).window j a ∧
        (rowDims N E C wf).start j idx a + (rowDims N E C wf).window j a < (⟨2, ![N, C]⟩ : Shape).size a := by
      rw [Fin.forall_fin_two]
      refine ⟨?_, ?_⟩
      · rw [row_start0, row_window0, hz]
        show (0 : Int) ≤ ((i 0).val : Int) + ((0 : Nat) : Int) ∧ ((i 0).val : Int) + ((0 : Nat) : Int) < (N : Int)
        omega
      · rw [row_start1, row_window1]
        show (0 : Int) ≤ 0 + ((j 1).val : Int) ∧ (0 : Int) + ((j 1).val : Int) < (C : Int)
        omega
    rw [dif_pos hb]
    congr 1
    funext a
    refine Fin.ext ?_
    match a with
    | ⟨0, _⟩ =>
      show ((rowDims N E C wf).start j idx 0 + (rowDims N E C wf).window j 0).toNat = (i 0).val
      rw [row_start0, row_window0, hz]
      omega
    | ⟨1, _⟩ =>
      show ((rowDims N E C wf).start j idx 1 + (rowDims N E C wf).window j 1).toNat = (i 1).val
      rw [row_start1, row_window1]
      omega

/-- The dimension numbers of a gather of E rows out of a table of N rows of C entries: one index per result row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The index array is read at (e, 0): the result row's coordinate on axis 0 (the result's one batch axis), the one
    component of the index vector on axis 1. -/
private theorem rowGather_siIdx {N E C : Nat}
    (wf : GatherDims.WF ⟨2, ![N, C]⟩ ⟨2, ![E, 1]⟩ ⟨2, ![E, C]⟩ [1] [0] [] [0] [] 1 ![1, C])
    (e : Fin E) (f : Fin C) (c : Fin (rowGatherDims N E C wf).startIndexMap.length) :
    (rowGatherDims N E C wf).siIdx (ix2 e f) c = ix2 e 0 := by
  funext b; refine Fin.ext ?_
  match b with
  | ⟨0, _⟩ => rfl
  | ⟨1, _⟩ =>
    have : c.val < 1 := c.isLt
    show c.val = 0
    omega

/-- The row gather read at (e, f): the table at the row the integer at (e, 0) names, read signed and clamped into
    [0, N - 1], same column. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f)
      = x (ix2 ⟨min (idx (ix2 e 0)).toInt.toNat (N - 1), by omega⟩ f) := by
  unfold Host.gather
  congr 1
  funext a
  refine Fin.ext ?_
  match a with
  | ⟨0, _⟩ =>
    -- the row axis: collapsed (no offset), not batching, named by the start index map, slice size 1: the clamped integer
    show (rowGatherDims N E C wf).start (ix2 e f) idx 0 + (rowGatherDims N E C wf).batchCoord (ix2 e f) 0
        + (rowGatherDims N E C wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [rowGather_siIdx]
    rfl
  | ⟨1, _⟩ =>
    -- the column axis: not named by the start index map (start 0), not batching, the one offset axis: the result's column
    show (rowGatherDims N E C wf).start (ix2 e f) idx 1 + (rowGatherDims N E C wf).batchCoord (ix2 e f) 1
        + (rowGatherDims N E C wf).offCoord (ix2 e f) 1 = f.val
    have hs : (rowGatherDims N E C wf).start (ix2 e f) idx 1 = 0 := by
      unfold GatherDims.start
      rw [dif_neg]
      show (1 : Fin 2) ∉ [(0 : Fin 2)]
      decide
    have ho : (rowGatherDims N E C wf).offCoord (ix2 e f) 1 = f.val := by
      have h1 : (1 : Fin 2) ∈ (rowGatherDims N E C wf).sKept := by
        show (1 : Fin 2) ∈ (List.finRange 2).filter (fun a => decide (a ∉ [(0 : Fin 2)] ++ ([] : List (Fin 2))))
        decide
      unfold GatherDims.offCoord
      rw [dif_pos h1]
      rfl
    rw [hs, GatherDims.batchCoord_eq_zero _ _ _ List.not_mem_nil, ho]
    omega

end Cert.Lib.RowIndex
-- ==== Proof.LibScatterSum.lean ====
/-
  The accumulating scatter at the ideal instance, read at an index as a sum over the update rows.

  At the ideal instance a scatter-add leaves, at each entry of its operand, the entry plus the exact sum of the updates
  that land there. With one integer per update row naming the row it goes to, entry n of a vector receives the
  updates e whose integer is n; entry (n, f) of a table receives, from each update row e whose integer is n, its
  entry (e, f). Updates whose integer names no row contribute nothing.
-/
import proofs.«148335_j27685359190830_2_alg».proof.Proof.LibRowIndex
import Idealize.ShloMosaic.PureOps.Ideal
import Idealize.ShloMosaic.PureOps.Contract

noncomputable section

namespace Cert.Lib.RowIndex

open Idealize.ShloMosaic Idealize.ShloMosaic.ValueIdx

/-- A vector's index set is its one coordinate's range. -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Entry n of a vector after a scatter-add of E scalars: the entry, plus the updates whose integer is n. -/
theorem scatterVec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) (vecDims N E wf) x idx upd (ix1 n)
      = x (ix1 n) + ∑ e : Fin E, if (idx (ix2 e 0)).toInt = (n.val : Int) then upd (ix1 e) else 0 := by
  unfold Host.scatterAdd
  rw [Ideal.hostScatterAdd_def]
  unfold Ideal.hostScatterAdd
  simp only [vecDims_resultIdx?_eq_some_iff]
  rw [Finset.sum_filter, sum_idx1]
  rfl

/-- Entry (n, f) of a table after a scatter-add of E rows: the entry, plus entry f of each update row whose integer
    is n. -/
theorem scatterRow_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (f : Fin C) :
    Host.scatterAdd (F := Ideal) (φ := .f32) (rowDims N E C wf) x idx upd (ix2 n f)
      = x (ix2 n f) + ∑ e : Fin E, if (idx (ix2 e 0)).toInt = (n.val : Int) then upd (ix2 e f) else 0 := by
  unfold Host.scatterAdd
  rw [Ideal.hostScatterAdd_def]
  unfold Ideal.hostScatterAdd
  simp only [rowDims_resultIdx?_eq_some_iff]
  rw [Finset.sum_filter, sum_idx2]
  congr 1
  refine Finset.sum_congr rfl fun e _ => ?_
  show (∑ b : Fin C, if (idx (ix2 e 0)).toInt = (n.val : Int) ∧ b.val = f.val then upd (ix2 e b) else 0) = _
  by_cases h : (idx (ix2 e 0)).toInt = (n.val : Int)
  · rw [if_pos h, Finset.sum_eq_single f]
    · rw [if_pos ⟨h, rfl⟩]
    · intro b _ hb
      rw [if_neg (fun hv => hb (Fin.ext hv.2))]
    · intro hf; exact absurd (Finset.mem_univ f) hf
  · rw [if_neg h]
    exact Finset.sum_eq_zero fun b _ => if_neg (fun hv => h hv.1)

end Cert.Lib.RowIndex

end
-- ==== Proof.LibSelfLoops.lean ====
/-
  An edge list with the nodes' own loops appended.

  Joining an array over E edges with an array over N nodes gives an array over T = E + N positions: position e < E
  reads the first array at e, position E + j reads the second at j. When the second array is the nodes' own indices
  0 … N - 1 (as 32-bit integers, N below 2 ^ 31), the appended position E + j carries the integer j, which read signed
  is j. So a sum over all T positions of the terms whose integer is a given node n is the sum over the E edges whose
  integer is n, plus the one term of n's own loop.
-/
import Idealize.ShloMosaic.Lib.Pipeline.Value
import Idealize.ShloMosaic.Lib.ValueIdx

noncomputable section

namespace Cert.Lib.SelfLoops

open Idealize.ShloMosaic Idealize.ShloMosaic.ValueIdx

/-- Position e of the first E positions. -/
abbrev posL {E N T : Nat} (hT : E + N = T) (e : Fin E) : Fin T := Fin.cast hT (Fin.castAdd N e)
/-- Position E + j, among the last N positions. -/
abbrev posR {E N T : Nat} (hT : E + N = T) (j : Fin N) : Fin T := Fin.cast hT (Fin.natAdd E j)

/-- The joined array at one of the first E positions is the first array there. -/
theorem cat_left {α : Type} {E N T : Nat} (hT : E + N = T) (x : (⟨1, ![E]⟩ : Shape).Idx → α) (y : (⟨1, ![N]⟩ : Shape).Idx → α)
    (h : Shape.Concatenates [(⟨1, ![E]⟩ : Shape), (⟨1, ![N]⟩ : Shape)] ⟨1, ![T]⟩ 0) (e : Fin E) :
    concatenate (⟨1, ![T]⟩ : Shape) 0 [⟨(⟨1, ![E]⟩ : Shape), x⟩, ⟨(⟨1, ![N]⟩ : Shape), y⟩] h (ix1 (posL hT e)) = x (ix1 e) := by
  refine concatenate_pair_apply_left (0 : Fin 1) x y h (ix1 (posL hT e)) rfl (ix1 e) ?_
  intro b
  match b with
  | ⟨0, _⟩ => rfl

/-- The joined array at position E + j is the second array at j. -/
theorem cat_right {α : Type} {E N T : Nat} (hT : E + N = T) (x : (⟨1, ![E]⟩ : Shape).Idx → α) (y : (⟨1, ![N]⟩ : Shape).Idx → α)
    (h : Shape.Concatenates [(⟨1, ![E]⟩ : Shape), (⟨1, ![N]⟩ : Shape)] ⟨1, ![T]⟩ 0) (j : Fin N) :
    concatenate (⟨1, ![T]⟩ : Shape) 0 [⟨(⟨1, ![E]⟩ : Shape), x⟩, ⟨(⟨1, ![N]⟩ : Shape), y⟩] h (ix1 (posR hT j)) = y (ix1 j) := by
  refine concatenate_pair_apply_right (0 : Fin 1) x y h (ix1 (posR hT j)) rfl rfl (ix1 j) ?_ ?_
  · intro b hb
    match b with
    | ⟨0, _⟩ => exact absurd rfl hb
  · show j.val + E = E + j.val
    omega

/-- The integer j < N ≤ 2 ^ 31, read signed, is j. -/
theorem toInt_ofNat_of_lt {N j : Nat} (hN : N ≤ 2 ^ 31) (hj : j < N) : (BitVec.ofNat 32 j).toInt = (j : Int) := by
  have hm : j % 2 ^ 32 = j := Nat.mod_eq_of_lt (by omega)
  rw [BitVec.toInt_eq_toNat_cond, BitVec.toNat_ofNat, hm, if_pos (by omega)]

/-- A sum over the T = E + N positions is the sum over the first E plus the sum over the last N. -/
private theorem sum_split {M : Type} [AddCommMonoid M] {E N T : Nat} (hT : E + N = T) (g : Fin T → M) :
    ∑ i, g i = (∑ e : Fin E, g (posL hT e)) + ∑ j : Fin N, g (posR hT j) := by
  subst hT
  simpa using Fin.sum_univ_add g

/-- A sum over the T positions of the terms whose integer — an edge's, or a node's own index — is n: the sum over
    the edges whose integer is n, plus n's own term. -/
theorem sum_cat_filter {M : Type} [AddCommMonoid M] {E N T : Nat} (hT : E + N = T) (hN : N ≤ 2 ^ 31)
    (d : (⟨1, ![E]⟩ : Shape).Idx → BitVec 32)
    (h : Shape.Concatenates [(⟨1, ![E]⟩ : Shape), (⟨1, ![N]⟩ : Shape)] ⟨1, ![T]⟩ 0) (n : Fin N) (g : Fin T → M) :
    (∑ i : Fin T, if (concatenate (⟨1, ![T]⟩ : Shape) 0
          [⟨(⟨1, ![E]⟩ : Shape), d⟩, ⟨(⟨1, ![N]⟩ : Shape), iotaInDim (⟨1, ![N]⟩ : Shape) 32 0⟩] h (ix1 i)).toInt = (n.val : Int)
        then g i else 0)
      = (∑ e : Fin E, if (d (ix1 e)).toInt = (n.val : Int) then g (posL hT e) else 0) + g (posR hT n) := by
  rw [sum_split hT]
  congr 1
  · -- an edge position carries the edge's integer
    refine Finset.sum_congr rfl fun e _ => ?_
    rw [cat_left hT]
  · -- position E + j carries the integer j, which is n exactly when j = n: one term is left
    have hterm : ∀ j : Fin N,
        (if (concatenate (⟨1, ![T]⟩ : Shape) 0
            [⟨(⟨1, ![E]⟩ : Shape), d⟩, ⟨(⟨1, ![N]⟩ : Shape), iotaInDim (⟨1, ![N]⟩ : Shape) 32 0⟩] h
              (ix1 (posR hT j))).toInt = (n.val : Int)
          then g (posR hT j) else 0) = if j = n then g (posR hT j) else 0 := by
      intro j
      rw [cat_right hT]
      have hj : (iotaInDim (⟨1, ![N]⟩ : Shape) 32 0 (ix1 j)).toInt = (j.val : Int) :=
        toInt_ofNat_of_lt hN j.isLt
      rw [hj]
      by_cases hjn : j = n
      · rw [if_pos hjn, if_pos (by rw [hjn])]
      · rw [if_neg hjn, if_neg]
        intro hh
        exact hjn (Fin.ext (Int.ofNat_inj.mp hh))
    rw [Finset.sum_congr rfl fun j _ => hterm j, Finset.sum_ite_eq', if_pos (Finset.mem_univ n)]

end Cert.Lib.SelfLoops

end
-- ==== Proof.LibSumLaws.lean ====
/-
  The laws on the extended reals that join an aggregation over E edges plus a separate self term with the same
  aggregation over E + N edges, the last N of which are the nodes' own loops.

  * A sum over E + N positions is the sum over the first E plus the sum over the last N (commutativity and
    associativity only: it holds at the infinities too).
  * A sum of zeros and ones is a nonnegative REAL (a count); so a count plus one is at least one, clipping it below
    at one changes nothing, and its reciprocal square root is again a nonnegative real.
  * A nonnegative real scalar moves through a sum of products: multiplication by a nonnegative real distributes over
    ANY sum of extended reals (multiplication by an infinity would not).
-/
import Idealize.ShloMosaic.PureOps.Ideal
import Idealize.ShloMosaic.Lib.IdealHost

noncomputable section

namespace Cert.Lib.SumLaws

open Idealize.ShloMosaic

/-- A sum over `T = E + N` positions: the first `E`, then the last `N`. -/
theorem sum_fin_split {M : Type*} [AddCommMonoid M] {T E N : Nat} (h : E + N = T) (g : Fin T → M) :
    ∑ i, g i = (∑ e : Fin E, g (Fin.cast h (Fin.castAdd N e))) + ∑ j : Fin N, g (Fin.cast h (Fin.natAdd E j)) := by
  subst h
  simpa using Fin.sum_univ_add g

/-- A finite sum of reals, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- How many positions satisfy `p`, as a real number. -/
def count {ι : Type*} [Fintype ι] (p : ι → Prop) [DecidablePred p] : ℝ := ∑ i, if p i then 1 else 0

theorem count_nonneg {ι : Type*} [Fintype ι] (p : ι → Prop) [DecidablePred p] : 0 ≤ count p :=
  Finset.sum_nonneg fun i _ => by split_ifs <;> norm_num

/-- A sum of ones over the positions satisfying `p` (zeros elsewhere) is that count. -/
theorem sum_ite_one {ι : Type*} [Fintype ι] (p : ι → Prop) [DecidablePred p] :
    (∑ i, if p i then (1 : EReal) else 0) = (count p : EReal) := by
  unfold count
  rw [← coe_sum]
  refine Finset.sum_congr rfl fun i _ => ?_
  split_ifs <;> simp

/-- The reciprocal square root of a positive real is the real `1 / √r`. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 hr.le), if_neg hr.ne']

/-- The reciprocal square root of a count plus one is a nonnegative real. -/
theorem rsqrt_add_one {c : ℝ} (hc : 0 ≤ c) : ∃ q : ℝ, 0 ≤ q ∧ Ideal.rsqrt ((c : EReal) + 1) = (q : EReal) := by
  refine ⟨(Real.sqrt (c + 1))⁻¹, inv_nonneg.2 (Real.sqrt_nonneg _), ?_⟩
  rw [← EReal.coe_one, ← EReal.coe_add, rsqrt_coe_pos (by linarith)]

/-- Clipping a count plus one below at one changes nothing. -/
theorem max_one_add {c : ℝ} (hc : 0 ≤ c) : max (1 : EReal) ((c : EReal) + 1) = (c : EReal) + 1 := by
  apply max_eq_right
  rw [← EReal.coe_one, ← EReal.coe_add, EReal.coe_le_coe_iff]
  linarith

/-- A nonnegative real scalar applied to the left factors of a sum of products is the scalar applied to the sum. -/
theorem sum_mul_real {ι : Type*} (s : Finset ι) (a w : ι → EReal) {q : ℝ} (hq : 0 ≤ q) :
    ∑ k ∈ s, (a k * (q : EReal)) * w k = (∑ k ∈ s, a k * w k) * (q : EReal) := by
  classical
  induction s using Finset.induction_on with
  | empty => simp
  | insert i s hi ih =>
    rw [Finset.sum_insert hi, Finset.sum_insert hi, ih,
      EReal.right_distrib_of_nonneg_of_ne_top (by exact_mod_cast hq) (EReal.coe_ne_top q), mul_right_comm]

end Cert.Lib.SumLaws

end
-- ==== Proof.LibVecGather.lean ====
/-
  A gather of scalars out of a vector, read at an index.

  The index array has shape [E, 1]; entry (e, 0) names the entry of the vector that result entry e reads. The
  integer is read signed and clamped into the vector.
-/
import Idealize.ShloMosaic.Lib.ValueIdx

namespace Cert.Lib.VecGather

open Idealize.ShloMosaic Idealize.ShloMosaic.ValueIdx

/-- The dimension numbers of a gather of E scalars out of a vector of N entries: one index per result entry. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The index array is read at (e, 0): the result's one coordinate on axis 0, the one component of the index vector
    on axis 1. -/
private theorem vecGather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e 0 := by
  funext b; refine Fin.ext ?_
  match b with
  | ⟨0, _⟩ => rfl
  | ⟨1, _⟩ =>
    have : c.val < 1 := c.isLt
    show c.val = 0
    omega

/-- The vector gather read at e: the vector at the entry the integer at (e, 0) names, read signed and clamped into
    [0, N - 1]. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    -- the one axis: collapsed (no offset), not batching, named by the start index map, slice size 1: the clamped integer
    show (vecGatherDims N E wf).start (ix1 e) idx 0 + (vecGatherDims N E wf).batchCoord (ix1 e) 0
        + (vecGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    rw [vecGather_siIdx]
    rfl

end Cert.Lib.VecGather
-- ==== Proof.LibLayerLaw.lean ====
/-
  The law that joins "scale each message by both end nodes' factors, then add up" with "scale by the source's
  factor, add up, then scale the total by the target's factor".

  Every edge e carries an integer D e (the node it points to, when that is a node at all), a source row, and a row
  "rowd e" that is the target whenever D e names a node. Every node n has a factor q n that is a nonnegative REAL.
  The sum over the edges pointing to n of A(source) · q(source), scaled by q n, is the sum over the same edges of
  A(source) · (q(source) · q(rowd)): on those edges rowd is n, and a nonnegative real factor distributes over any sum
  of extended reals.
-/
import proofs.«148335_j27685359190830_2_alg».proof.Proof.LibSumLaws

noncomputable section

namespace Cert.Lib.LayerLaw

open Cert.Lib.SumLaws

theorem layer {T N : Nat} (D : Fin T → Int) (row rowd : Fin T → Fin N) (q : Fin N → EReal)
    (hq : ∀ n, ∃ r : ℝ, 0 ≤ r ∧ q n = (r : EReal))
    (hd : ∀ e (n : Fin N), D e = (n.val : Int) → rowd e = n) (A : Fin N → EReal) (n : Fin N) :
    (0 + ∑ e : Fin T, if D e = (n.val : Int) then A (row e) * q (row e) else 0) * q n
      = 0 + ∑ e : Fin T, if D e = (n.val : Int) then A (row e) * (q (row e) * q (rowd e)) else 0 := by
  obtain ⟨r, hr, hqn⟩ := hq n
  rw [zero_add, zero_add, hqn]
  have h := sum_mul_real Finset.univ (fun e : Fin T => if D e = (n.val : Int) then A (row e) * q (row e) else 0)
    (fun _ => (1 : EReal)) hr
  simp only [mul_one] at h
  rw [← h]
  refine Finset.sum_congr rfl fun e _ => ?_
  by_cases he : D e = (n.val : Int)
  · rw [if_pos he, if_pos he, hd e n he, hqn, mul_assoc]
  · rw [if_neg he, if_neg he, zero_mul]

/-- An integer that names node n (0 ≤ n < N ≤ 2 ^ 31), shifted up by N when negative and left alone otherwise, then
    clamped into [0, N - 1], is n. -/
theorem clamp_of_toInt_eq {N : Nat} (a : BitVec 32) (n : Fin N) (h : a.toInt = (n.val : Int)) :
    min a.toInt.toNat (N - 1) = n.val := by
  have := n.isLt
  rw [h]
  omega

end Cert.Lib.LayerLaw

end
-- ==== Proof.RefIndex.lean ====
/-
  The reference program's stages, read at an index.

  Edge e (one of the 800000 given edges, or a node's own loop) carries a target integer and a source integer. The
  scatter-adds read the target as it is: an edge contributes to node n exactly when its target integer is n. The
  gathers read an integer shifted up by the node count when negative, then clamped into the table: "srow" for the
  source, "trow" for the target; when the target integer is n, trow is n. The degree of n is one (its own loop) plus
  the number of given edges whose target integer is n, so the factor q n, its reciprocal square root, is a
  nonnegative real.
-/
import proofs.«148335_j27685359190830_2_alg».proof.Proof.Gen.ReferenceIdeal.Read
import proofs.«148335_j27685359190830_2_alg».proof.Proof.LibRowIndex
import proofs.«148335_j27685359190830_2_alg».proof.Proof.LibScatterSum
import proofs.«148335_j27685359190830_2_alg».proof.Proof.LibSelfLoops
import proofs.«148335_j27685359190830_2_alg».proof.Proof.LibSumLaws
import proofs.«148335_j27685359190830_2_alg».proof.Proof.LibVecGather
import proofs.«148335_j27685359190830_2_alg».proof.Proof.LibLayerLaw
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.Lib.RowIndex Cert.Lib.VecGather Cert.Lib.SelfLoops Cert.Lib.SumLaws Cert.Lib.LayerLaw

variable (x1 : (⟨S2x800000, .i32⟩ : BufTy).Contents (Elt Ideal))

/-- The integer edge e's target is read as. -/
def tgt (e : Fin 900000) : Int := BitVec.toInt (val_main_v6 (F := Ideal) x1 (ix1 e) : BitVec 32)
/-- The row edge e's source is gathered from. -/
def srow (e : Fin 900000) : Fin 100000 :=
  ⟨min (BitVec.toInt (val_main_v16 (F := Ideal) x1 (ix1 e) : BitVec 32)).toNat (100000 - 1), by omega⟩
/-- The row edge e's target is gathered from. -/
def trow (e : Fin 900000) : Fin 100000 :=
  ⟨min (BitVec.toInt (val_main_v23 (F := Ideal) x1 (ix1 e) : BitVec 32)).toNat (100000 - 1), by omega⟩
/-- Node n's factor. -/
def q (n : Fin 100000) : EReal := val_main_v11 (F := Ideal) x1 (ix1 n)

/-! ## The index columns at (e, 0) -/

theorem v9_at (e : Fin 900000) : val_main_v9 (F := Ideal) x1 (ix2 e (0 : Fin 1)) = val_main_v6 (F := Ideal) x1 (ix1 e) := by
  rw [val_main_v9_apply]; exact congrArg _ (funext fun a => match a with | ⟨0, _⟩ => rfl)
theorem v39_at (e : Fin 900000) : val_main_v39 (F := Ideal) x1 (ix2 e (0 : Fin 1)) = val_main_v6 (F := Ideal) x1 (ix1 e) := by
  rw [val_main_v39_apply]; exact congrArg _ (funext fun a => match a with | ⟨0, _⟩ => rfl)
theorem v57_at (e : Fin 900000) : val_main_v57 (F := Ideal) x1 (ix2 e (0 : Fin 1)) = val_main_v6 (F := Ideal) x1 (ix1 e) := by
  rw [val_main_v57_apply]; exact congrArg _ (funext fun a => match a with | ⟨0, _⟩ => rfl)
theorem v17_at (e : Fin 900000) : val_main_v17 (F := Ideal) x1 (ix2 e (0 : Fin 1)) = val_main_v16 (F := Ideal) x1 (ix1 e) := by
  rw [val_main_v17_apply]; exact congrArg _ (funext fun a => match a with | ⟨0, _⟩ => rfl)
theorem v24_at (e : Fin 900000) : val_main_v24 (F := Ideal) x1 (ix2 e (0 : Fin 1)) = val_main_v23 (F := Ideal) x1 (ix1 e) := by
  rw [val_main_v24_apply]; exact congrArg _ (funext fun a => match a with | ⟨0, _⟩ => rfl)

/-- The shifted sources are computed three times over; the three columns are one array. -/
theorem v33_eq : val_main_v33 (F := Ideal) x1 = val_main_v17 (F := Ideal) x1 := rfl
theorem v51_eq : val_main_v51 (F := Ideal) x1 = val_main_v17 (F := Ideal) x1 := rfl

/-! ## The degree and the factor -/

/-- The degree of n: the number of positions, edges and own loops, whose target integer is n. -/
theorem v10_at (n : Fin 100000) :
    val_main_v10 (F := Ideal) x1 (ix1 n) = 0 + ∑ e : Fin 900000, if tgt x1 e = (n.val : Int) then (1 : EReal) else 0 := by
  unfold val_main_v10
  rw [show scatter_S100000_S900000x1_S900000_n_0_0_1 = vecDims 100000 900000 scatter_S100000_S900000x1_S900000_n_0_0_1_wf from rfl,
    scatterVec_apply]
  simp only [val_main_v8_apply, val_main_cst_0_apply, val_main_v7_apply, val_main_cst_apply, Ideal.ofBits_def,
    Ideal.ofBits_zero_f32, Ideal.ofBits_one_f32, v9_at]
  rfl

/-- The factor of every node is a nonnegative real: its degree is a count plus one. -/
theorem q_real (n : Fin 100000) : ∃ r : ℝ, 0 ≤ r ∧ q x1 n = (r : EReal) := by
  unfold q
  rw [val_main_v11_apply, Ideal.hostUnary_rsqrt_def, v10_at, zero_add]
  have h := sum_cat_filter (E := 800000) (N := 100000) (T := 900000) rfl (by norm_num) (val_main_v5 (F := Ideal) x1)
    concatenates_S800000_S100000_S900000_d0 n (fun _ => (1 : EReal))
  have h2 : (∑ e : Fin 900000, if tgt x1 e = (n.val : Int) then (1 : EReal) else 0)
      = (∑ e : Fin 800000, if BitVec.toInt (val_main_v5 (F := Ideal) x1 (ix1 e) : BitVec 32) = (n.val : Int) then (1 : EReal) else 0) + 1 := h
  rw [h2, sum_ite_one]
  exact rsqrt_add_one (count_nonneg _)

/-! ## The clamped target -/

theorem slt_zero_of_nonneg (a : BitVec 32) (h : 0 ≤ a.toInt) : IntOp.cmpi .slt a 0#32 = 0#1 := by
  show BitVec.ofBool (a.slt 0#32) = 0#1
  have hs : a.slt 0#32 = false := by
    rw [BitVec.slt_eq_decide]
    simp only [BitVec.toInt_zero, decide_eq_false_iff_not, not_lt]
    exact h
  rw [hs]; rfl

/-- When edge e's target integer is node n, the row its target is gathered from is n. -/
theorem trow_of_tgt (e : Fin 900000) (n : Fin 100000) (h : tgt x1 e = (n.val : Int)) : trow x1 e = n := by
  have hv : val_main_v23 (F := Ideal) x1 (ix1 e) = val_main_v6 (F := Ideal) x1 (ix1 e) := by
    rw [val_main_v23_apply, val_main_v20_apply, val_main_v19_apply, val_main_c_2_apply,
      slt_zero_of_nonneg _ (by rw [show BitVec.toInt (val_main_v6 (F := Ideal) x1 (ix1 e) : BitVec 32) = (n.val : Int) from h]; omega)]
    exact select_zero _ _
  apply Fin.ext
  show min (BitVec.toInt (val_main_v23 (F := Ideal) x1 (ix1 e) : BitVec 32)).toNat (100000 - 1) = n.val
  rw [hv]
  exact clamp_of_toInt_eq _ n h

end Cert.ReferenceIdeal.RefValue

end
-- ==== Proof.RefStages.lean ====
/-
  The reference program's gathers, scatter-adds and products, read at an index, over the edge quantities
  (target integer, source row, target row) and the nodes' factors.
-/
import proofs.«148335_j27685359190830_2_alg».proof.Proof.RefIndex

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.Lib.RowIndex Cert.Lib.VecGather Cert.Lib.SelfLoops Cert.Lib.SumLaws Cert.Lib.LayerLaw

variable (x1 : (⟨S2x800000, .i32⟩ : BufTy).Contents (Elt Ideal))

/-! ## The gathers and the scatter-adds at an index -/

theorem srow_eq (e : Fin 900000) (h) :
    (⟨min (BitVec.toInt (val_main_v17 (F := Ideal) x1 (ix2 e (0 : Fin 1)) : BitVec 32)).toNat (100000 - 1), h⟩ : Fin 100000) = srow x1 e :=
  Fin.ext (by show min _ _ = min _ _; rw [v17_at])
theorem trow_eq (e : Fin 900000) (h) :
    (⟨min (BitVec.toInt (val_main_v24 (F := Ideal) x1 (ix2 e (0 : Fin 1)) : BitVec 32)).toNat (100000 - 1), h⟩ : Fin 100000) = trow x1 e :=
  Fin.ext (by show min _ _ = min _ _; rw [v24_at])

/-- The per-edge weight: the source's factor times the target's. -/
theorem v26_at (e : Fin 900000) : val_main_v26 (F := Ideal) x1 (ix1 e) = q x1 (srow x1 e) * q x1 (trow x1 e) := by
  rw [val_main_v26_apply, Ideal.mulf_def]
  unfold val_main_v18 val_main_v25
  rw [show gather_S100000_S900000x1_S900000_n_0_n_n_0_1_1 = vecGatherDims 100000 900000 gather_S100000_S900000x1_S900000_n_0_n_n_0_1_1_wf from rfl,
    vecGather_apply (by norm_num), vecGather_apply (by norm_num), srow_eq, trow_eq]
  unfold q
  rfl

theorem v36_at (e : Fin 900000) (k : Fin 128) : val_main_v36 (F := Ideal) x1 (ix2 e k) = val_main_v26 (F := Ideal) x1 (ix1 e) := by
  rw [val_main_v36_apply, val_main_v35_apply]; exact congrArg _ (funext fun a => match a with | ⟨0, _⟩ => rfl)
theorem v54_at (e : Fin 900000) (j : Fin 64) : val_main_v54 (F := Ideal) x1 (ix2 e j) = val_main_v26 (F := Ideal) x1 (ix1 e) := by
  rw [val_main_v54_apply, val_main_v53_apply]; exact congrArg _ (funext fun a => match a with | ⟨0, _⟩ => rfl)

variable (x0 : (⟨S100000x256, .f32⟩ : BufTy).Contents (Elt Ideal)) (x2 : (⟨S256x128, .f32⟩ : BufTy).Contents (Elt Ideal))
  (x3 : (⟨S128, .f32⟩ : BufTy).Contents (Elt Ideal)) (x4 : (⟨S128x64, .f32⟩ : BufTy).Contents (Elt Ideal))
  (x5 : (⟨S64, .f32⟩ : BufTy).Contents (Elt Ideal))

/-- The first product at (n, k). -/
theorem v27_at (n : Fin 100000) (k : Fin 128) :
    val_main_v27 (F := Ideal) x0 x2 (ix2 n k) = ∑ l : Fin 256, x0 (ix2 n l) * x2 (ix2 l k) := by
  rw [val_main_v27_apply]
  refine Finset.sum_congr rfl fun l _ => ?_
  have hl : lidx_main_v27 (ix2 n k) l = ix2 n l := funext fun a => match a with | ⟨0, _⟩ => rfl | ⟨1, _⟩ => rfl
  have hr : ridx_main_v27 (ix2 n k) l = ix2 l k := funext fun a => match a with | ⟨0, _⟩ => rfl | ⟨1, _⟩ => rfl
  rw [hl, hr]

theorem v34_at (e : Fin 900000) (k : Fin 128) :
    val_main_v34 (F := Ideal) x0 x1 x2 (ix2 e k) = val_main_v27 (F := Ideal) x0 x2 (ix2 (srow x1 e) k) := by
  unfold val_main_v34
  rw [show gather_S100000x128_S900000x1_S900000x128_1_0_n_n_0_1_1128 = rowGatherDims 100000 900000 128 gather_S100000x128_S900000x1_S900000x128_1_0_n_n_0_1_1128_wf from rfl,
    rowGather_apply (by norm_num), v33_eq, srow_eq]

/-- One update row of the first scatter-add: the product's row at the source, times the edge's weight. -/
theorem v37_at (e : Fin 900000) (k : Fin 128) : val_main_v37 (F := Ideal) x0 x1 x2 (ix2 e k)
    = val_main_v27 (F := Ideal) x0 x2 (ix2 (srow x1 e) k) * (q x1 (srow x1 e) * q x1 (trow x1 e)) := by
  rw [val_main_v37_apply, v34_at, v36_at, v26_at]
  rfl

/-- The first aggregate at (n, k): over the edges whose target integer is n, the product's row at the source, times the
    edge's weight. -/
theorem v40_at (n : Fin 100000) (k : Fin 128) : val_main_v40 (F := Ideal) x0 x1 x2 (ix2 n k)
    = 0 + ∑ e : Fin 900000, if tgt x1 e = (n.val : Int)
        then val_main_v27 (F := Ideal) x0 x2 (ix2 (srow x1 e) k) * (q x1 (srow x1 e) * q x1 (trow x1 e)) else 0 := by
  unfold val_main_v40
  rw [show scatter_S100000x128_S900000x1_S900000x128_1_0_0_1 = rowDims 100000 900000 128 scatter_S100000x128_S900000x1_S900000x128_1_0_0_1_wf from rfl,
    scatterRow_apply]
  refine congr (congrArg HAdd.hAdd ?_) (Finset.sum_congr rfl fun e _ => ?_)
  · rw [val_main_v38_apply, val_main_cst_6_apply, Ideal.ofBits_def, Ideal.ofBits_zero_f32]
  · rw [v39_at, v37_at]
    rfl

theorem v42_at (n : Fin 100000) (k : Fin 128) : val_main_v42 (F := Ideal) x3 (ix2 n k) = x3 (ix1 k) := by
  rw [val_main_v42_apply, val_main_v41_apply]; exact congrArg _ (funext fun a => match a with | ⟨0, _⟩ => rfl)

/-- The hidden layer at (n, k): the aggregate plus the bias, clipped below at zero. -/
theorem v44_at (n : Fin 100000) (k : Fin 128) : val_main_v44 (F := Ideal) x0 x1 x2 x3 (ix2 n k)
    = max (val_main_v40 (F := Ideal) x0 x1 x2 (ix2 n k) + x3 (ix1 k)) 0 := by
  rw [val_main_v44_apply, val_main_v43_apply, val_main_call0_v0_apply, val_main_call0_cst_apply, v42_at]
  simp only [Ideal.maximumf_def, Ideal.addf_def, Ideal.ofBits_def, Ideal.ofBits_zero_f32]

/-- The second product at (n, j). -/
theorem v45_at (n : Fin 100000) (j : Fin 64) : val_main_v45 (F := Ideal) x0 x1 x2 x3 x4 (ix2 n j)
    = ∑ k : Fin 128, val_main_v44 (F := Ideal) x0 x1 x2 x3 (ix2 n k) * x4 (ix2 k j) := by
  rw [val_main_v45_apply]
  refine Finset.sum_congr rfl fun k _ => ?_
  have hl : lidx_main_v45 (ix2 n j) k = ix2 n k := funext fun a => match a with | ⟨0, _⟩ => rfl | ⟨1, _⟩ => rfl
  have hr : ridx_main_v45 (ix2 n j) k = ix2 k j := funext fun a => match a with | ⟨0, _⟩ => rfl | ⟨1, _⟩ => rfl
  rw [hl, hr]

theorem v52_at (e : Fin 900000) (j : Fin 64) : val_main_v52 (F := Ideal) x0 x1 x2 x3 x4 (ix2 e j)
    = val_main_v45 (F := Ideal) x0 x1 x2 x3 x4 (ix2 (srow x1 e) j) := by
  unfold val_main_v52
  rw [show gather_S100000x64_S900000x1_S900000x64_1_0_n_n_0_1_164 = rowGatherDims 100000 900000 64 gather_S100000x64_S900000x1_S900000x64_1_0_n_n_0_1_164_wf from rfl,
    rowGather_apply (by norm_num), v51_eq, srow_eq]

/-- One update row of the second scatter-add. -/
theorem v55_at (e : Fin 900000) (j : Fin 64) : val_main_v55 (F := Ideal) x0 x1 x2 x3 x4 (ix2 e j)
    = val_main_v45 (F := Ideal) x0 x1 x2 x3 x4 (ix2 (srow x1 e) j) * (q x1 (srow x1 e) * q x1 (trow x1 e)) := by
  rw [val_main_v55_apply, v52_at, v54_at, v26_at]
  rfl

/-- The second aggregate at (n, j). -/
theorem v58_at (n : Fin 100000) (j : Fin 64) : val_main_v58 (F := Ideal) x0 x1 x2 x3 x4 (ix2 n j)
    = 0 + ∑ e : Fin 900000, if tgt x1 e = (n.val : Int)
        then val_main_v45 (F := Ideal) x0 x1 x2 x3 x4 (ix2 (srow x1 e) j) * (q x1 (srow x1 e) * q x1 (trow x1 e)) else 0 := by
  unfold val_main_v58
  rw [show scatter_S100000x64_S900000x1_S900000x64_1_0_0_1 = rowDims 100000 900000 64 scatter_S100000x64_S900000x1_S900000x64_1_0_0_1_wf from rfl,
    scatterRow_apply]
  refine congr (congrArg HAdd.hAdd ?_) (Finset.sum_congr rfl fun e _ => ?_)
  · rw [val_main_v56_apply, val_main_cst_9_apply, Ideal.ofBits_def, Ideal.ofBits_zero_f32]
  · rw [v57_at, v55_at]
    rfl

theorem v60_at (n : Fin 100000) (j : Fin 64) : val_main_v60 (F := Ideal) x5 (ix2 n j) = x5 (ix1 j) := by
  rw [val_main_v60_apply, val_main_v59_apply]; exact congrArg _ (funext fun a => match a with | ⟨0, _⟩ => rfl)

/-- The reference's result at (n, j): the second aggregate plus the bias. -/
theorem v61_at (n : Fin 100000) (j : Fin 64) : val_main_v61 (F := Ideal) x0 x1 x2 x3 x4 x5 (ix2 n j)
    = val_main_v58 (F := Ideal) x0 x1 x2 x3 x4 (ix2 n j) + x5 (ix1 j) := by
  rw [val_main_v61_apply, v60_at, Ideal.addf_def]

end Cert.ReferenceIdeal.RefValue

end
-- ==== Proof.Bridge.lean ====
/-
  The idealized kernel program's result is the reference's, index by index.

  The kernel scales each product row by its node's factor before the gather and scales each aggregate row by its
  node's factor after the scatter-add; the reference multiplies each gathered row by the product of the two end
  nodes' factors. An edge contributes to node n exactly when its target integer is n, and then its target row is n;
  the factors are nonnegative reals; so the layer law applies, once per layer. Between the layers both sides add the
  bias and clip below at zero; a matrix product is the same sum on both sides.
-/
import proofs.«148335_j27685359190830_2_alg».proof.Proof.KernelHost
import proofs.«148335_j27685359190830_2_alg».proof.Proof.RefStages
import Idealize.ShloMosaic.Lib.ValueLayout
import Idealize.ShloMosaic.Lib.IdealHost

set_option maxRecDepth 16384

noncomputable section

namespace Cert.Bridge

open Idealize.ShloMosaic Idealize.ShloMosaic.ValueIdx
open Cert.Lib.RowIndex Cert.Lib.LayerLaw
open Cert.KernelIdeal.Host Cert.KernelIdeal.Reg Cert.KernelIdeal.Pay
open Cert.ReferenceIdeal.RefValue

/-- A vector [a] recast as a column [a, 1] reads, at (i, 0), the vector at i. -/
theorem shapeCast_a_a1_apply {α : Type} {a : ℕ} (v : (⟨1, ![a]⟩ : Shape).Idx → α)
    (h : (⟨1, ![a]⟩ : Shape).ShapeCasts ⟨2, ![a, 1]⟩) (i : Fin a) (u : Fin 1) :
    shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    omega)

variable (x : (⟨2, ![100000, 256]⟩ : Shape).Idx → EReal) (e : (⟨Cert.KernelIdeal.S2x800000, .i32⟩ : BufTy).Contents (Elt Ideal))
  (w1 : (⟨2, ![256, 128]⟩ : Shape).Idx → EReal) (b1 : (⟨1, ![128]⟩ : Shape).Idx → EReal)
  (w2 : (⟨2, ![128, 64]⟩ : Shape).Idx → EReal) (b2 : (⟨1, ![64]⟩ : Shape).Idx → EReal)

/-- The degree column at (n, 0) is node n's factor. -/
theorem qcol_at (n : Fin 100000) : qcol e (ix2 n (0 : Fin 1)) = q e n := by
  unfold qcol q
  exact shapeCast_a_a1_apply _ _ n 0

/-- The kernel's first scaled product at (s, k): the reference's first product there, times the factor of s. -/
theorem G0_at (s : Fin 100000) (k : Fin 128) :
    G0 x w1 (qcol e) (ix2 s k) = Cert.ReferenceIdeal.Read.val_main_v27 (F := Ideal) x w1 (ix2 s k) * q e s := by
  rw [G0_apply]
  unfold g0
  rw [qcol_at, v27_at]

/-- A gathered row of the first scaled product. -/
theorem gath1_at (ed : Fin 900000) (k : Fin 128) :
    (extf .f32 (Host.gather Cert.KernelIdeal.gather_S100000x128_S900000x1_S900000x128_1_0_n_n_0_1_1128 (G0 x w1 (qcol e)) (Cert.ReferenceIdeal.Read.val_main_v17 (F := Ideal) e) : FVec Ideal Cert.KernelIdeal.S900000x128 .bf16) Cert.KernelIdeal.Gen.bitsLt_bf16_f32) (ix2 ed k)
      = Cert.ReferenceIdeal.Read.val_main_v27 (F := Ideal) x w1 (ix2 (srow e ed) k) * q e (srow e ed) := by
  rw [extf_apply, show Cert.KernelIdeal.gather_S100000x128_S900000x1_S900000x128_1_0_n_n_0_1_1128 = rowGatherDims 100000 900000 128 Cert.KernelIdeal.Gen.gather_S100000x128_S900000x1_S900000x128_1_0_n_n_0_1_1128_wf from rfl,
    rowGather_apply (by norm_num), srow_eq, G0_at]

/-- The kernel's first aggregate at (r, k). -/
theorem agg1_at (r : Fin 100000) (k : Fin 128) : agg1 x w1 e (ix2 r k)
    = 0 + ∑ ed : Fin 900000, if tgt e ed = (r.val : Int)
        then Cert.ReferenceIdeal.Read.val_main_v27 (F := Ideal) x w1 (ix2 (srow e ed) k) * q e (srow e ed) else 0 := by
  unfold agg1
  rw [show Cert.KernelIdeal.scatter_S100000x128_S900000x1_S900000x128_1_0_0_1 = rowDims 100000 900000 128 Cert.KernelIdeal.Gen.scatter_S100000x128_S900000x1_S900000x128_1_0_0_1_wf from rfl,
    scatterRow_apply]
  refine congr (congrArg HAdd.hAdd ?_) (Finset.sum_congr rfl fun ed _ => ?_)
  · rw [broadcastInDim_scalar_apply, constant_apply, Ideal.ofBits_zero_f32]
  · rw [v9_at, gath1_at]
    rfl

/-- Layer 1: the kernel's aggregate, scaled by the target's factor, is the reference's aggregate. -/
theorem layer1 (r : Fin 100000) (k : Fin 128) :
    agg1 x w1 e (ix2 r k) * q e r = Cert.ReferenceIdeal.Read.val_main_v40 (F := Ideal) x e w1 (ix2 r k) := by
  rw [agg1_at, v40_at]
  exact layer (tgt e) (srow e) (trow e) (q e) (q_real e) (trow_of_tgt e) (fun s => Cert.ReferenceIdeal.Read.val_main_v27 (F := Ideal) x w1 (ix2 s k)) r

/-- The kernel's second scaled product at (r, j): the reference's second product there, times the factor of r. -/
theorem hw2_at (r : Fin 100000) (j : Fin 64) :
    hw2 x w1 b1 w2 e (ix2 r j) = Cert.ReferenceIdeal.Read.val_main_v45 (F := Ideal) x e w1 b1 w2 (ix2 r j) * q e r := by
  unfold hw2
  rw [G1_apply]
  unfold g1
  rw [qcol_at, v45_at]
  refine congrArg (· * q e r) (Finset.sum_congr rfl fun k _ => ?_)
  rw [layer1, shapeCast_a_1a_apply, v44_at]

/-- A gathered row of the second scaled product. -/
theorem gath2_at (ed : Fin 900000) (j : Fin 64) :
    (extf .f32 (Host.gather Cert.KernelIdeal.gather_S100000x64_S900000x1_S900000x64_1_0_n_n_0_1_164 (hw2 x w1 b1 w2 e) (Cert.ReferenceIdeal.Read.val_main_v17 (F := Ideal) e) : FVec Ideal Cert.KernelIdeal.S900000x64 .bf16) Cert.KernelIdeal.Gen.bitsLt_bf16_f32) (ix2 ed j)
      = Cert.ReferenceIdeal.Read.val_main_v45 (F := Ideal) x e w1 b1 w2 (ix2 (srow e ed) j) * q e (srow e ed) := by
  rw [extf_apply, show Cert.KernelIdeal.gather_S100000x64_S900000x1_S900000x64_1_0_n_n_0_1_164 = rowGatherDims 100000 900000 64 Cert.KernelIdeal.Gen.gather_S100000x64_S900000x1_S900000x64_1_0_n_n_0_1_164_wf from rfl,
    rowGather_apply (by norm_num), srow_eq, hw2_at]

/-- The kernel's second aggregate at (n, j). -/
theorem agg2_at (n : Fin 100000) (j : Fin 64) : agg2 x w1 b1 w2 e (ix2 n j)
    = 0 + ∑ ed : Fin 900000, if tgt e ed = (n.val : Int)
        then Cert.ReferenceIdeal.Read.val_main_v45 (F := Ideal) x e w1 b1 w2 (ix2 (srow e ed) j) * q e (srow e ed) else 0 := by
  unfold agg2
  rw [show Cert.KernelIdeal.scatter_S100000x64_S900000x1_S900000x64_1_0_0_1 = rowDims 100000 900000 64 Cert.KernelIdeal.Gen.scatter_S100000x64_S900000x1_S900000x64_1_0_0_1_wf from rfl,
    scatterRow_apply]
  refine congr (congrArg HAdd.hAdd ?_) (Finset.sum_congr rfl fun ed _ => ?_)
  · rw [broadcastInDim_scalar_apply, constant_apply, Ideal.ofBits_zero_f32]
  · rw [v9_at, gath2_at]
    rfl

/-- Layer 2. -/
theorem layer2 (n : Fin 100000) (j : Fin 64) :
    agg2 x w1 b1 w2 e (ix2 n j) * q e n = Cert.ReferenceIdeal.Read.val_main_v58 (F := Ideal) x e w1 b1 w2 (ix2 n j) := by
  rw [agg2_at, v58_at]
  exact layer (tgt e) (srow e) (trow e) (q e) (q_real e) (trow_of_tgt e) (fun s => Cert.ReferenceIdeal.Read.val_main_v45 (F := Ideal) x e w1 b1 w2 (ix2 s j)) n

/-- The two results agree at every (n, j). -/
theorem out_at (n : Fin 100000) (j : Fin 64) :
    out x e w1 b1 w2 b2 (ix2 n j) = Cert.ReferenceIdeal.Read.val_main_v61 (F := Ideal) x e w1 b1 w2 b2 (ix2 n j) := by
  unfold out
  rw [G2_apply]
  unfold g2
  rw [qcol_at, layer2, shapeCast_a_1a_apply, v61_at]

/-- The kernel program's result function is the reference's result stage. -/
theorem out_eq : out x e w1 b1 w2 b2 = Cert.ReferenceIdeal.Read.val_main_v61 (F := Ideal) x e w1 b1 w2 b2 :=
  funext fun i => by
    rw [eq_ix2 i]
    exact out_at x e w1 b1 w2 b2 ⟨(i 0).val, idx2_lt0 i⟩ ⟨(i 1).val, idx2_lt1 i⟩

end Cert.Bridge

end
-- ==== Proof.lean ====
/-
  A two-layer graph convolution, kernel against reference, on the extended reals.

  Both programs append each node's own loop to the edge list, take the degree of a node as the number of positions
  whose target is that node, and its reciprocal square root as the node's factor. The reference weighs each gathered
  row by the product of its two end nodes' factors before adding it up at the target. The kernel program scales every
  row of the dense product by its own node's factor inside the first kernel region, gathers and adds up unweighted
  on the host, and scales each aggregate row by its node's factor inside the next region (together with the bias,
  the clipping at zero and the next dense product; the last region only scales and adds the bias). The two agree
  because the factor of a target node is a nonnegative real and so moves through the sum over the edges that point
  to it; finiteness of the inputs is not needed.

  The three frames are the generated frame certificates (the reference's is its generated run with the result
  dropped); the idealization rewrote nothing, so there is nothing to preserve; the value claim joins the kernel
  program's run, read back to one function of the arguments, with the reference's generated run.
-/
import proofs.«148335_j27685359190830_2_alg».proof.Defs
import proofs.«148335_j27685359190830_2_alg».proof.Proof.Gen.Kernel
import proofs.«148335_j27685359190830_2_alg».proof.Proof.Gen.Kernel.Skeleton
import proofs.«148335_j27685359190830_2_alg».proof.Proof.Gen.Kernel.Launch
import proofs.«148335_j27685359190830_2_alg».proof.Proof.Gen.Kernel.Points
import proofs.«148335_j27685359190830_2_alg».proof.Proof.Gen.Kernel.Frame
import proofs.«148335_j27685359190830_2_alg».proof.Proof.Gen.KernelIdeal
import proofs.«148335_j27685359190830_2_alg».proof.Proof.Gen.KernelIdeal.Skeleton
import proofs.«148335_j27685359190830_2_alg».proof.Proof.Gen.KernelIdeal.Launch
import proofs.«148335_j27685359190830_2_alg».proof.Proof.Gen.KernelIdeal.Points
import proofs.«148335_j27685359190830_2_alg».proof.Proof.Gen.KernelIdeal.Frame
import proofs.«148335_j27685359190830_2_alg».proof.Proof.Gen.ReferenceIdeal
import proofs.«148335_j27685359190830_2_alg».proof.Proof.Gen.Pre_finite_inputs
import proofs.«148335_j27685359190830_2_alg».proof.Proof.Gen.ReferenceIdeal.Run
import proofs.«148335_j27685359190830_2_alg».proof.Proof.Gen.ReferenceIdeal.Read
import proofs.«148335_j27685359190830_2_alg».proof.Proof.KernelRun
import proofs.«148335_j27685359190830_2_alg».proof.Proof.KernelHost
import proofs.«148335_j27685359190830_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and both results are the kernel program's result
    function of the arguments: the kernel's by its run read back, the reference's by its run and the bridge. -/
theorem algebraic : Cert.algebraic_KernelIdeal_ReferenceIdeal := by
  intro m ρ m' ρ' _ hagree
  refine ⟨fun c => Cert.KernelIdeal.Host.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Host.w6_v39 m ρ c), (h c).2⟩)
      (Cert.KernelIdeal.Val.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]
    exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
